-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  main_v3
-- ==== Kernel.lean ====
abbrev S4096x50257 : Shape := ⟨2, ![4096, 50257]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S64x50257 : Shape := ⟨2, ![64, 50257]⟩
abbrev S64x1 : Shape := ⟨2, ![64, 1]⟩
abbrev S64x4096 : Shape := ⟨2, ![64, 4096]⟩
abbrev S64 : Shape := ⟨1, ![64]⟩
abbrev S64x1105 : Shape := ⟨2, ![64, 1105]⟩

abbrev nBuf : Space → Nat
  | .hbm => 31
  | .vmem => 8
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S64x50257, .f32⟩
  | .local _ .vmem, ⟨1, _⟩ => ⟨S64x50257, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c12_i32 : BitVec 32 := 12#32
  let v2 : BitVec 32 := Scalar.addi c0_i32 c12_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c4096_i32 : BitVec 32 := 4096#32
  let v39 : BitVec 32 := Scalar.muli arg5 c4096_i32
  v39
def k0_off1 (k0_t1 : Fin k0_t1_loop.trips) : Fin 2 → Nat :=
  let c0_15 : Index := 0#32
  let c0_i32 : BitVec 32 := 0#32
  let c1_i32 : BitVec 32 := 1#32
  let arg5 : BitVec 32 := Scf.iv c0_i32 c1_i32 k0_t1
  let c4096_i32 : BitVec 32 := 4096#32
  let v39 : BitVec 32 := Scalar.muli arg5 c4096_i32
  let v40 : BitVec 32 := v39
  let v41 : Index := Scalar.indexCast v40
  ![0, v41.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  slices_S4096x50257_S4096x1_0_9 : S4096x50257.Slices ![0, 9] S4096x1
  h_S64x4096 : 0 < S64x4096.numel
  reduces_S64x4096_S64 : S64x4096.Reduces [1] S64
  shapeCasts_S64_S64x1 : S64.ShapeCasts S64x1
  broadcasts_S64x1_S64x4096 : S64x1.Broadcasts S64x4096
  inb_S64x50257_S64x1105_0_49152 : ∀ a, (![0, 49152] : Fin 2 → Nat) a + S64x1105.size a ≤ S64x50257.size a
  h_S64x1105 : 0 < S64x1105.numel
  reduces_S64x1105_S64 : S64x1105.Reduces [1] S64
  broadcasts_S64x1_S64x1105 : S64x1.Broadcasts S64x1105
  inb_S64x1_S64x1_0_0 : ∀ a, (![0, 0] : Fin 2 → Nat) a + S64x1.size a ≤ S64x1.size a
  h_S64x1 : 0 < S64x1.numel
  shapeCasts_S64x1_S64x1 : S64x1.ShapeCasts S64x1
  reducesTo_S4096x1_S_d0_1 : S4096x1.ReducesTo [0, 1] S_
  gather_S4096x50257_S4096x1x1_S4096x1_n_1_0_0_1_2_11_wf : GatherDims.WF S4096x50257 S4096x1x1 S4096x1 [] [1] [0] [1] [0] 2 ![1, 1]
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S64x4096.size a ≤ S64x50257.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x50257.size a ≤ S4096x50257.size a
  hwx0_0 : ∀ i : grid0.Coords, EltTy.bits .f32 = 32 ∨ (Rect.block (s := S4096x50257) S64x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .f32 = 32 ∨ (Rect.block (s := S4096x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S4096x1.size a
  hwx0_3 : ∀ i : grid0.Coords, EltTy.bits .f32 = 32 ∨ (Rect.block (s := S4096x1) S64x1.size (cc0_transform_3 i) (hinb0_3 i)).WholeWords (EltTy.packing .f32)

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

abbrev win0_0 : Pipeline.Window sig grid0 :=
  Pipeline.Window.ofSpec (Memref.whole main_arg0) S64x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x50257, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x50257, .f32⟩
  | .hbm, ⟨16, _⟩ => ⟨S4096x50257, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_cst : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst_0 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_cst_2 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_3 : Ref sig .tc := ⟨.hbm, 58, rfl⟩
abbrev main_v17 : Ref sig .tc := ⟨.hbm, 59, rfl⟩
abbrev main_cst_4 : Ref sig .tc := ⟨.hbm, 60, rfl⟩
abbrev main_v18 : Ref sig .tc := ⟨.hbm, 61, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  slices_S4096x50257_S4096x1_0_9 : S4096x50257.Slices ![0, 9] S4096x1
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.Spec.lean ====
/-
  The function both programs compute, over the extended reals.

  A row of logits x_0 … x_{C-1} (C = 50257) has the maximum M and the shifted exponential sum S = Σ_k exp (x_k − M);
  the log-probability of a logit v of that row is (v − M) − log S.  A row's loss is
      c · (−ℓ_t) + |1 − ℓ_9| · d · d
  with ℓ_t the log-probability of the picked logit (or the fill value where the picking index is out of range), ℓ_9
  that of column 9, and c, d the two printed constants; the result is the sum of the 4096 row losses divided by 4096.

  The kernel does not see a row at once: it walks it in twelve chunks of 4096 columns and a last one of 1105, carrying
  the pair (running maximum m, sum of exp (x_k − m) over the columns seen).  One step over a chunk is `olStep`; the
  pair after k full chunks is `olIter`; after the last chunk, `olFinal`.
-/
import Idealize.ShloMosaic.PureOps.Ideal
import Idealize.ShloMosaic.Lib.ValueIdx

noncomputable section

namespace Cert.LSLoss

open Idealize.ShloMosaic Idealize.ShloMosaic.ValueIdx

/-- The logits: 4096 rows of 50257 columns. -/
abbrev SX : Shape := ⟨2, ![4096, 50257]⟩

/-- One step of the running pair (maximum, sum of exponentials shifted by that maximum) over a chunk `c` of `n`
    values: the new maximum is the larger of the old one and the chunk's; the old sum is rescaled by
    exp (old maximum − new maximum) and the chunk's shifted exponentials are added. -/
def olStep {n : ℕ} (c : Fin n → EReal) (s : EReal × EReal) : EReal × EReal :=
  (max s.1 (Finset.univ.fold max ⊥ c),
   s.2 * Ideal.exp (s.1 - max s.1 (Finset.univ.fold max ⊥ c))
     + ∑ j, Ideal.exp (c j - max s.1 (Finset.univ.fold max ⊥ c)))

/-- The running pair after `k` chunks of 4096 columns of the row `x` (columns numbered from 0), from (−∞, 0). -/
def olIter (x : ℕ → EReal) : ℕ → EReal × EReal
  | 0 => (⊥, 0)
  | k + 1 => olStep (fun j : Fin 4096 => x (4096 * k + j.val)) (olIter x k)

/-- The pair after the twelve full chunks and the last chunk of 1105 columns (12 · 4096 + 1105 = 50257). -/
def olFinal (x : ℕ → EReal) : EReal × EReal :=
  olStep (fun j : Fin 1105 => x (49152 + j.val)) (olIter x 12)

/-- A row's maximum, as a fold of `max` from −∞. -/
def rowMax (ξ : Fin 50257 → EReal) : EReal := Finset.univ.fold max ⊥ ξ

/-- A row's sum of exponentials shifted by its maximum. -/
def rowSum (ξ : Fin 50257 → EReal) : EReal := ∑ k, Ideal.exp (ξ k - rowMax ξ)

/-- The log-probability of a logit `v` in a row of maximum `M` and shifted sum `S`. -/
def logp (M S v : EReal) : EReal := (v - M) - Ideal.log S

/-- The value a pick leaves where its index is out of range (the pattern of a quiet NaN; at the extended reals, −∞). -/
def fill : EReal := Ideal.ofBits .f32 0x7FC00000#32

/-- A row's loss from the picked log-probability and column 9's. -/
def rowLoss (lt l9 : EReal) : EReal :=
  Ideal.ofBits .f32 0x3F666666#32 * -lt
    + max (Ideal.ofBits .f32 0x3F800000#32 - l9) (-(Ideal.ofBits .f32 0x3F800000#32 - l9))
        * Ideal.ofBits .f32 0x3DCCCCCD#32 * Ideal.ofBits .f32 0x3DCCCCCD#32

/-- Row `b` of the logits as a function of the column. -/
def row (x : SX.Idx → EReal) (b : Fin 4096) : Fin 50257 → EReal := fun k => x (ix2 b k)

/-- Row `b`'s loss: the pick reads column `col b` where `ok b` is set, and is the fill value elsewhere. -/
def lossAt (x : SX.Idx → EReal) (ok : Fin 4096 → BitVec 1) (col : Fin 4096 → Fin 50257) (b : Fin 4096) : EReal :=
  rowLoss (Scalar.select (ok b) (logp (rowMax (row x b)) (rowSum (row x b)) (x (ix2 b (col b)))) fill)
    (logp (rowMax (row x b)) (rowSum (row x b)) (x (ix2 b ⟨9, by decide⟩)))

/-- THE RESULT: the mean of the row losses, as a sum from 0 divided by the printed 4096. -/
def G (x : SX.Idx → EReal) (ok : Fin 4096 → BitVec 1) (col : Fin 4096 → Fin 50257) : EReal :=
  Ideal.div (0 + ∑ b : Fin 4096, lossAt x ok col b) (Ideal.ofBits .f32 0x45800000#32)

/-- The picking indices: one 32-bit word per row. -/
abbrev ST : Shape := ⟨1, ![4096]⟩

/-- A picking index with a negative value counted from the end of the row (50257 added once, in 32-bit arithmetic). -/
def wrapped (v : BitVec 32) : BitVec 32 := Scalar.select (IntOp.cmpi .slt v 0#32) (IntOp.addi v 50257#32) v

/-- Set where row `b`'s wrapped picking index, read signed, lies in 0 … 50256. -/
def okOf (t : ST.Idx → BitVec 32) (b : Fin 4096) : BitVec 1 :=
  IntOp.andi (IntOp.cmpi .sge (wrapped (t (ix1 b))) 0#32) (IntOp.cmpi .sle (wrapped (t (ix1 b))) 50256#32)

/-- The column row `b`'s pick reads: the wrapped index read signed and clamped into 0 … 50256. -/
def colOf (t : ST.Idx → BitVec 32) (b : Fin 4096) : Fin 50257 :=
  ⟨min (wrapped (t (ix1 b))).toInt.toNat 50256, by omega⟩

end Cert.LSLoss

end
-- ==== Proof.FiniteInputs.lean ====
/-
  From the precondition to "every logit is a real number".

  The precondition is the conjunction, over all 4096 × 50257 entries of the logits, of |x| < +∞ (the constant's pattern
  0x7F800000 is +∞).  A conjunction that holds holds at every entry; and an extended real x with max x (−x) < +∞ is
  neither +∞ (then x itself would be +∞) nor −∞ (then −x would be +∞), so it is a real number.
-/
import proofs.«175673_j29016799052387_2_alg».proof.Pre_finite_inputs
import proofs.«175673_j29016799052387_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic

/-- The single-precision pattern 0x7F800000 (sign 0, exponent all ones, fraction 0) denotes +∞. -/
theorem ofBits_inf : Ideal.ofBits .f32 0x7F800000#32 = (⊤ : EReal) := by
  show Ideal.ieee 8 23 (0x7F800000#32 : BitVec 32) = ⊤
  unfold Ideal.ieee
  have h1 : ((0x7F800000#32 : BitVec 32).extractLsb' 23 8).toNat = 2 ^ 8 - 1 := by decide
  have h2 : ((0x7F800000#32 : BitVec 32).extractLsb' 0 23).toNat = 0 := by decide
  have h3 : ((0x7F800000#32 : BitVec 32).extractLsb' (8 + 23) 1 == 1#1) = false := by decide
  simp only [h1, h2, h3]
  simp

/-- An extended real whose absolute value max x (−x) is below +∞ is a real number. -/
theorem real_of_abs_lt_top (y : EReal) (h : max y (-y) < ⊤) : ∃ a : ℝ, y = (a : EReal) := by
  have h1 : y < ⊤ := lt_of_le_of_lt (le_max_left _ _) h
  have h2 : -y < ⊤ := lt_of_le_of_lt (le_max_right _ _) h
  have h3 : y ≠ ⊥ := by
    intro hb
    rw [hb, EReal.neg_bot] at h2
    exact lt_irrefl _ h2
  exact ⟨y.toReal, (EReal.coe_toReal h1.ne h3).symm⟩

/-- Under the precondition every logit is a real number. -/
theorem real_of_pre [Cert.Pre_finite_inputs.Facts] (x : FVec Ideal Cert.Pre_finite_inputs.S4096x50257 .f32)
    (t : IVec Cert.Pre_finite_inputs.S4096 32)
    (h : Cert.Pre_finite_inputs.fn (F := Ideal) x t = fun _ => 1#1) : ∀ i, ∃ a : ℝ, x i = (a : EReal) := by
  intro i
  have h0 := congrFun h ValueIdx.ix0
  haveI : Subsingleton Cert.Pre_finite_inputs.S_.Idx := ⟨fun a b => funext fun d => d.elim0⟩
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_inf] at hc
  refine real_of_abs_lt_top (x i) ?_
  by_contra hn
  simp [Ideal.cmp, hn] at hc

end Cert.Finite

end
-- ==== Proof.LibTypedRead.lean ====
/-
  Typed reads of a line of host operations (a general lemma file; nothing here mentions a particular program).

  A host operation built over TYPED references (`TRef sig T`: a buffer reference that carries the type `T` of the tensor
  value it holds) stores its result through a transport along the reference's type equation, and reads its operands
  back through the inverse transport. Read at the value's type, the transports cancel:

      get y W := the contents of `y`'s buffer under the valuation `W`, at the type `T` that `y` carries.

  After a typed operation the typed read of its result is the operation's function of the typed reads of its operands
  (`get_nullary` … `get_ternary`), and the typed read of any other reference is what it was (`get_…_ne`). Rewriting
  with these walks a line of operations from its last to its first without ever meeting a transport, so the composed
  term that is left is the plain composition of the operations' functions. `eq_toBuf_of_get` goes back from a typed
  read to the raw contents of the buffer.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Tc Ty : BufTy}

/-- The contents of a typed reference's buffer under a valuation, at the type the reference carries. -/
def get (x : TRef sig T) (W : Valuation τ sig Val) : T.Contents Val := x.ofBuf (W (Proc.devRef .tc x.ref))

/-- Transport to the buffer's type and back is the identity. -/
theorem ofBuf_toBuf (x : TRef sig T) (v : T.Contents Val) : x.ofBuf (x.toBuf v) = v := by
  obtain ⟨r, h, h1, h2⟩ := x
  subst h
  rfl

/-- Transport to the value's type and back is the identity. -/
theorem toBuf_ofBuf (x : TRef sig T) (v : x.ref.ty.Contents Val) : x.toBuf (x.ofBuf v) = v := by
  obtain ⟨r, h, h1, h2⟩ := x
  subst h
  rfl

/-- The raw contents of a buffer whose typed read is `t`. -/
theorem eq_toBuf_of_get (x : TRef sig T) (W : Valuation τ sig Val) (t : T.Contents Val) (h : get x W = t) :
    W (Proc.devRef .tc x.ref) = x.toBuf t := by
  subst h
  exact (toBuf_ofBuf x _).symm

/-! ## The result of a typed operation, read at its type -/

theorem get_nullary (y : TRef sig Ty) (v : Ty.Contents Val) (W : Valuation τ sig Val) :
    get y ((TRef.nullary y v : HloOp τ sig Val).result W) = v :=
  (congrArg y.ofBuf (nullary_result y.ref (y.toBuf v) y.dev W)).trans (ofBuf_toBuf y v)

theorem get_unary (x : TRef sig Tx) (y : TRef sig Ty) (f : Tx.Contents Val → Ty.Contents Val) (W : Valuation τ sig Val) :
    get y ((TRef.unary x y f : HloOp τ sig Val).result W) = f (get x W) :=
  (congrArg y.ofBuf (unary_result x.ref y.ref (fun u => y.toBuf (f (x.ofBuf u))) x.dev y.dev W)).trans (ofBuf_toBuf y _)

theorem get_binary (a : TRef sig Ta) (b : TRef sig Tb) (y : TRef sig Ty)
    (f : Ta.Contents Val → Tb.Contents Val → Ty.Contents Val) (W : Valuation τ sig Val) :
    get y ((TRef.binary a b y f : HloOp τ sig Val).result W) = f (get a W) (get b W) :=
  (congrArg y.ofBuf (binary_result a.ref b.ref y.ref (fun u v => y.toBuf (f (a.ofBuf u) (b.ofBuf v))) a.dev b.dev y.dev W)).trans
    (ofBuf_toBuf y _)

theorem get_ternary (c : TRef sig Tc) (a : TRef sig Ta) (b : TRef sig Tb) (y : TRef sig Ty)
    (f : Tc.Contents Val → Ta.Contents Val → Tb.Contents Val → Ty.Contents Val) (W : Valuation τ sig Val) :
    get y ((TRef.ternary c a b y f : HloOp τ sig Val).result W) = f (get c W) (get a W) (get b W) :=
  (congrArg y.ofBuf (ternary_result c.ref a.ref b.ref y.ref
    (fun w u v => y.toBuf (f (c.ofBuf w) (a.ofBuf u) (b.ofBuf v))) c.dev a.dev b.dev y.dev W)).trans (ofBuf_toBuf y _)

/-! ## Any other reference keeps its typed read -/

theorem get_nullary_ne (y : TRef sig Ty) (v : Ty.Contents Val) (W : Valuation τ sig Val) (z : TRef sig T)
    (h : z.ref ≠ y.ref) : get z ((TRef.nullary y v : HloOp τ sig Val).result W) = get z W :=
  congrArg z.ofBuf (nullary_result_ne (y := y.ref) (y.toBuf v) y.dev W h)

theorem get_unary_ne (x : TRef sig Tx) (y : TRef sig Ty) (f : Tx.Contents Val → Ty.Contents Val) (W : Valuation τ sig Val)
    (z : TRef sig T) (h : z.ref ≠ y.ref) : get z ((TRef.unary x y f : HloOp τ sig Val).result W) = get z W :=
  congrArg z.ofBuf (unary_result_ne (x := x.ref) (y := y.ref) (fun u => y.toBuf (f (x.ofBuf u))) x.dev y.dev W h)

theorem get_binary_ne (a : TRef sig Ta) (b : TRef sig Tb) (y : TRef sig Ty)
    (f : Ta.Contents Val → Tb.Contents Val → Ty.Contents Val) (W : Valuation τ sig Val) (z : TRef sig T)
    (h : z.ref ≠ y.ref) : get z ((TRef.binary a b y f : HloOp τ sig Val).result W) = get z W :=
  congrArg z.ofBuf (binary_result_ne (a := a.ref) (b := b.ref) (y := y.ref)
    (fun u v => y.toBuf (f (a.ofBuf u) (b.ofBuf v))) a.dev b.dev y.dev W h)

theorem get_ternary_ne (c : TRef sig Tc) (a : TRef sig Ta) (b : TRef sig Tb) (y : TRef sig Ty)
    (f : Tc.Contents Val → Ta.Contents Val → Tb.Contents Val → Ty.Contents Val) (W : Valuation τ sig Val) (z : TRef sig T)
    (h : z.ref ≠ y.ref) : get z ((TRef.ternary c a b y f : HloOp τ sig Val).result W) = get z W :=
  congrArg z.ofBuf (ternary_result_ne (c := c.ref) (a := a.ref) (b := b.ref) (y := y.ref)
    (fun w u v => y.toBuf (f (c.ofBuf w) (a.ofBuf u) (b.ofBuf v))) c.dev a.dev b.dev y.dev W h)

/-! ## An operation over a literal family of three references

(the library states the four-operand form, `nary4_result`; a concatenation of three pieces needs this one) -/

/-- The result of an operation over the literal family `![x, a, b]`, each operand's contents at its own reference. -/
theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

end Cert.TypedRead

end
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.LibColGather.lean ====
/-
  A one-index-per-row gather along the last axis, and a one-element `and` reduction, each read at an index.

  Taking one entry per row of a matrix `x : [R, C]` at a column index per row — `take_along_axis` along the last axis —
  is a `stablehlo.gather` of the operand `[R, C]` at start indices `[R, 1, 1]` into `[R, 1]` with offset_dims `[]`,
  collapsed_slice_dims `[1]`, operand_batching_dims `[0]`, start_indices_batching_dims `[0]`, start_index_map `[1]`,
  index_vector_dim 2 and slice_sizes `[1, 1]`.  Row `b` of the result reads row `b` of the operand (the batching axis
  pairs the rows) at the column given by row `b`'s start index, read as a signed integer and clamped into
  `[0, C − 1]` (`gather_col_apply`).

  The companion: a reduction with `and` from `true` over the last, one-element axis of an `[R, 1, 1]` array of bits into
  `[R, 1]` is the array itself, entry by entry (`reduce_and_unit_apply`).
-/
import Idealize.ShloMosaic.Lib.ValueIdx
import Idealize.ShloMosaic.PureOps.Reduce

noncomputable section

namespace Cert.ColGather

open Idealize.ShloMosaic Idealize.ShloMosaic.ValueIdx

section Col
variable {α : Type}

/-- The dimension numbers of the one-index-per-row gather, for an operand `[R, C]`, start indices `[R, 1, 1]` and result
    `[R, 1]`; their conditions `wf` are decided on a program's literal shapes.  A record written out with these seven
    fields is `colDims R C _` by `rfl`. -/
abbrev colDims (R C : Nat)
    (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT ROW `b`: the operand's row `b` at the column `idx[b, 0, 0]`, read signed and clamped into
    `[0, C − 1]`. -/
theorem gather_col_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (b : Fin R) :
    Host.gather (colDims R C wf) x idx (ix2 b 0)
      = x (ix2 b ⟨min (idx (ix3 b 0 0)).toInt.toNat (C - 1), by omega⟩) := by
  unfold Host.gather
  congr 1
  funext a
  refine Fin.ext ?_
  match a with
  | ⟨0, _⟩ =>
    show (colDims R C wf).start (ix2 b 0) idx 0 + (colDims R C wf).batchCoord (ix2 b 0) 0
      + (colDims R C wf).offCoord (ix2 b 0) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (colDims R C wf).operandBatchingDims from List.mem_singleton.mpr rfl)]
    rfl
  | ⟨1, _⟩ =>
    show (colDims R C wf).start (ix2 b 0) idx 1 + (colDims R C wf).batchCoord (ix2 b 0) 1
      + (colDims R C wf).offCoord (ix2 b 0) 1 = min (idx (ix3 b 0 0)).toInt.toNat (C - 1)
    rw [GatherDims.batchCoord_eq_zero _ _ _ (fun h => absurd (List.mem_singleton.mp h) (show ¬((1 : Fin 2) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R C wf).startIndexMap from List.mem_singleton.mpr rfl)]
    have hsi : (colDims R C wf).siIdx (ix2 b 0) ⟨List.idxOf (1 : Fin 2) (colDims R C wf).startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl

end Col

/-! ## An `and` reduction over a one-element axis -/

/-- On one bit, `and` with `1` changes nothing. -/
theorem and_one_bit (x : BitVec 1) : IntOp.andi x 1#1 = x := by
  revert x; decide

/-- A fold of `and` from `1` over a one-element index set is its one term. -/
theorem fold_and_unit {n : Nat} (hn : n = 1) (g : Fin n → BitVec 1) (k : Fin n) :
    (Finset.univ : Finset (Fin n)).fold IntOp.andi 1#1 g = g k := by
  subst hn
  rw [Finset.univ_unique, Finset.fold_singleton, and_one_bit]
  exact congrArg g (Subsingleton.elim _ _)

/-- A reduction with `and` from `true` over the last (one-element) axis of an `[R, 1, 1]` array of bits into `[R, 1]`,
    read at row `b`: the array's own entry `(b, 0, 0)`.  The fold over the dropped axis has the one term. -/
theorem reduce_and_unit_apply {R : Nat} (v : IVec ⟨3, ![R, 1, 1]⟩ 1)
    (h' : (⟨3, ![R, 1, 1]⟩ : Shape).ReducesTo [2] ⟨2, ![R, 1]⟩) (hu : 0 < (⟨0, ![]⟩ : Shape).numel) (b : Fin R) :
    Host.reduce IntOp.andi v (fun _ => 1#1) h' hu (ix2 b 0) = v (ix3 b 0 0) := by
  have h : (⟨3, ![R, 1, 1]⟩ : Shape).Reduces [2] ⟨2, ![R, 1]⟩ := ⟨h'.1, Nat.zero_lt_two, h'.2⟩
  rw [Host.reduce_eq_fold_single IntOp.andi v (fun _ => 1#1) h' h hu (ix2 b 0)]
  have hl : ∀ k, h.lift (ix2 b 0) k = ix3 b 0 0 := by
    intro k
    funext c
    refine Fin.ext ?_
    rw [h.lift_val]
    have hk : k.val = 0 := by have := k.isLt; change k.val < 1 at this; omega
    match c with
    | ⟨0, _⟩ => rfl
    | ⟨1, _⟩ => rfl
    | ⟨2, _⟩ => simpa [Shape.Reduces.liftVal] using hk
  rw [fold_and_unit (n := (⟨3, ![R, 1, 1]⟩ : Shape).size 2) rfl _ ⟨0, Nat.one_pos⟩, Function.comp_apply, hl]

end Cert.ColGather

end
-- ==== Proof.RefValue.lean ====
/-
  The reference program's result is the function G of the specification.

  The reference computes, row by row, the row maximum M (a reduction by `max` from −∞, then one more `max` with −∞), the
  shifted exponential sum S = 0 + Σ_k exp (x_k − M), the log-probabilities (x_k − M) − log S, the picked one (a gather
  of one column per row, under the mask "the wrapped index is in range", with the fill value elsewhere), column 9's, the
  row's loss, and the mean.  Each stage read at an index is the corresponding piece of G; the stages are taken in that
  order, one lemma each.
-/
import proofs.«175673_j29016799052387_2_alg».proof.Proof.RefRead
import proofs.«175673_j29016799052387_2_alg».proof.Proof.Spec
import proofs.«175673_j29016799052387_2_alg».proof.Proof.LibColGather
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.ReadP Cert.LSLoss Cert.ColGather
open Idealize.ShloMosaic Idealize.ShloMosaic.ValueIdx

/-- The logits' type. -/
abbrev XT : Type := (⟨S4096x50257, .f32⟩ : BufTy).Contents (Elt Ideal)
/-- The picking indices' type. -/
abbrev TT : Type := (⟨S4096, .i32⟩ : BufTy).Contents (Elt Ideal)

/-- The single-precision pattern 0xFF800000 (sign 1, exponent all ones, fraction 0) denotes −∞. -/
theorem ofBits_neg_inf : Ideal.ofBits .f32 0xFF800000#32 = (⊥ : EReal) := by
  show Ideal.ieee 8 23 (0xFF800000#32 : BitVec 32) = ⊥
  unfold Ideal.ieee
  have h1 : ((0xFF800000#32 : BitVec 32).extractLsb' 23 8).toNat = 2 ^ 8 - 1 := by decide
  have h2 : ((0xFF800000#32 : BitVec 32).extractLsb' 0 23).toNat = 0 := by decide
  have h3 : ((0xFF800000#32 : BitVec 32).extractLsb' (8 + 23) 1 == 1#1) = true := by decide
  simp only [h1, h2, h3]
  simp

/-- A sum over the indices of a one-axis shape is the sum over the coordinate. -/
theorem sum_idx1 {M : Type*} [AddCommMonoid M] {n : Nat} (f : (⟨1, ![n]⟩ : Shape).Idx → M) :
    ∑ j, f j = ∑ b : Fin n, f (ix1 b) := by
  refine Fintype.sum_equiv ⟨fun j => j 0, fun b => ix1 b, fun j => (eq_ix1 j).symm, fun b => rfl⟩ _ _ (fun j => ?_)
  exact congrArg f (eq_ix1 j)

/-- The reduction by `max` over a row is the row maximum. -/
theorem rowmax_apply (x : XT) (b : Fin 4096) :
    val_main_call0_v0 (F := Ideal) x (ix1 b) = rowMax (row x b) := by
  unfold val_main_call0_v0
  have h : S4096x50257.Reduces [1] S4096 := by decide
  rw [Host.reduce_eq_fold_single (FloatOps.maximumf (F := Ideal) (φ := .f32)) x (val_main_call0_cst (F := Ideal)) _ h _ (ix1 b)]
  have hf : (x ∘ h.lift (ix1 b)) = row x b :=
    funext fun k => congrArg x (funext fun a => Fin.ext (by match a with | ⟨0, _⟩ => rfl | ⟨1, _⟩ => rfl))
  rw [hf]
  show Finset.univ.fold max (Ideal.ofBits .f32 0xFF800000#32) (row x b) = rowMax (row x b)
  rw [ofBits_neg_inf]
  rfl

/-- One more `max` with −∞ changes nothing: the value subtracted from row `b` is its maximum. -/
theorem maxv_apply (x : XT) (b : Fin 4096) :
    val_main_call0_v2 (F := Ideal) x (ix1 b) = rowMax (row x b) := by
  rw [val_main_call0_v2_apply, val_main_call0_v1_apply, val_main_call0_cst_0_apply, rowmax_apply]
  show max (Ideal.ofBits .f32 0xFF800000#32) (rowMax (row x b)) = rowMax (row x b)
  rw [ofBits_neg_inf]
  exact max_eq_right bot_le

/-- The shifted logit at `(b, k)`. -/
theorem shifted_apply (x : XT) (b : Fin 4096) (k : Fin 50257) :
    val_main_call0_v5 (F := Ideal) x (ix2 b k) = x (ix2 b k) - rowMax (row x b) := by
  rw [val_main_call0_v5_apply, val_main_call0_v4_apply, val_main_call0_v3_apply]
  have hi : idx_main_call0_v3 (idx_main_call0_v4 (ix2 b k)) = ix1 b := by
    funext a; match a with | ⟨0, _⟩ => rfl
  rw [hi, maxv_apply]
  rfl

/-- The sum of the shifted exponentials over row `b` (from 0) is the row's shifted sum. -/
theorem sumv_apply (x : XT) (b : Fin 4096) :
    val_main_call0_v7 (F := Ideal) x (ix1 b) = rowSum (row x b) := by
  rw [val_main_call0_v7_apply, val_main_call0_cst_1_apply]
  show Ideal.ofBits .f32 0x00000000#32 + _ = _
  rw [Ideal.ofBits_zero_f32, zero_add]
  unfold rowSum
  refine Finset.sum_congr rfl fun k _ => ?_
  have hi : idx_main_call0_v7 (ix1 b) k = ix2 b k := by
    funext a; match a with | ⟨0, _⟩ => rfl | ⟨1, _⟩ => rfl
  rw [hi, val_main_call0_v6_apply, shifted_apply]
  rfl

/-- The log-probability at `(b, k)`. -/
theorem logprob_apply (x : XT) (b : Fin 4096) (k : Fin 50257) :
    val_main_v0 (F := Ideal) x (ix2 b k) = logp (rowMax (row x b)) (rowSum (row x b)) (x (ix2 b k)) := by
  rw [val_main_v0_apply, shifted_apply, val_main_call0_v10_apply, val_main_call0_v9_apply, val_main_call0_v8_apply]
  have hi : idx_main_call0_v8 (idx_main_call0_v10 (ix2 b k)) = ix1 b := by
    funext a; match a with | ⟨0, _⟩ => rfl
  rw [hi, sumv_apply, Ideal.subf_def, Ideal.hostUnary_log_def]
  rfl

/-- Row `b`'s picking index after wrapping, as the `[4096, 1]` array holds it. -/
theorem wrapped2_apply (t : TT) (b : Fin 4096) :
    val_main_call1_v4 (F := Ideal) t (ix2 b 0) = wrapped (t (ix1 b)) := by
  rw [val_main_call1_v4_apply, val_main_call1_v1_apply, val_main_call1_v3_apply, val_main_v1_apply,
    val_main_call1_v0_apply, val_main_call1_c_apply, val_main_call1_v2_apply, val_main_call1_c_0_apply]
  have hi : idx_main_v1 (ix2 b (0 : Fin 1)) = ix1 b := by
    funext a; match a with | ⟨0, _⟩ => rfl
  rw [hi]
  rfl

/-- The same, as the `[4096, 1, 1]` array of start indices holds it. -/
theorem wrapped3_apply (t : TT) (b : Fin 4096) :
    val_main_call1_v5 (F := Ideal) t (ix3 b 0 0) = wrapped (t (ix1 b)) := by
  rw [val_main_call1_v5_apply]
  have hi : idx_main_call1_v5 (ix3 b (0 : Fin 1) (0 : Fin 1)) = ix2 b 0 := by
    funext a; match a with
    | ⟨0, _⟩ => exact Fin.ext (by show ((b.val * 1 + 0) * 1 + 0) / 1 = b.val; omega)
    | ⟨1, _⟩ => rfl
  rw [hi, wrapped2_apply]

/-- The validity mask at row `b`: the wrapped index, read signed, lies in 0 … 50256. -/
theorem mask_apply (t : TT) (b : Fin 4096) :
    val_main_call1_v12 (F := Ideal) t (ix2 b 0) = okOf t b := by
  unfold val_main_call1_v12
  refine (reduce_and_unit_apply (val_main_call1_v11 (F := Ideal) t) _ _ b).trans ?_
  rw [val_main_call1_v11_apply, val_main_call1_v7_apply, val_main_call1_v10_apply, wrapped3_apply,
    val_main_call1_v6_apply, val_main_call1_c_2_apply, val_main_call1_v9_apply, val_main_call1_v8_apply,
    val_main_call1_c_1_apply]
  rfl

/-- The gather at row `b`: the log-probability of row `b` at the clamped column. -/
theorem gather_apply (x : XT) (t : TT) (b : Fin 4096) :
    val_main_call1_v13 (F := Ideal) x t (ix2 b 0)
      = logp (rowMax (row x b)) (rowSum (row x b)) (x (ix2 b (colOf t b))) := by
  unfold val_main_call1_v13
  refine (gather_col_apply (by norm_num) _ (val_main_v0 (F := Ideal) x) (val_main_call1_v5 (F := Ideal) t) b).trans ?_
  rw [← logprob_apply x b (colOf t b)]
  refine congrArg (fun c => val_main_v0 (F := Ideal) x (ix2 b c)) (Fin.ext ?_)
  show min (val_main_call1_v5 (F := Ideal) t (ix3 b 0 0)).toInt.toNat (50257 - 1)
    = min (wrapped (t (ix1 b))).toInt.toNat 50256
  rw [wrapped3_apply]

/-- The picked log-probability of row `b`, or the fill value where the index is out of range. -/
theorem pick_apply (x : XT) (t : TT) (b : Fin 4096) :
    val_main_v3 (F := Ideal) x t (ix1 b)
      = Scalar.select (okOf t b) (logp (rowMax (row x b)) (rowSum (row x b)) (x (ix2 b (colOf t b)))) fill := by
  rw [val_main_v3_apply]
  have hi : idx_main_v3 (ix1 b) = ix2 b 0 := by
    funext a; match a with
    | ⟨0, _⟩ => exact Fin.ext (by show b.val / 1 = b.val; omega)
    | ⟨1, _⟩ => rfl
  rw [hi, val_main_v2_apply, mask_apply, gather_apply, val_main_call1_v14_apply, val_main_call1_cst_apply]
  rfl

/-- Column 9's log-probability of row `b`. -/
theorem col9_apply (x : XT) (b : Fin 4096) :
    val_main_v6 (F := Ideal) x (ix1 b)
      = logp (rowMax (row x b)) (rowSum (row x b)) (x (ix2 b ⟨9, by decide⟩)) := by
  rw [val_main_v6_apply]
  have hi : idx_main_v6 (ix1 b) = ix2 b 0 := by
    funext a; match a with
    | ⟨0, _⟩ => exact Fin.ext (by show b.val / 1 = b.val; omega)
    | ⟨1, _⟩ => rfl
  rw [hi, val_main_v5_apply]
  have hj : idx_main_v5 (ix2 b (0 : Fin 1)) = ix2 b ⟨9, by decide⟩ := by
    funext a; match a with | ⟨0, _⟩ => rfl | ⟨1, _⟩ => rfl
  rw [hj, logprob_apply]

/-- Row `b`'s term of the final sum is the row's loss. -/
theorem term_apply (x : XT) (t : TT) (b : Fin 4096) :
    val_main_v16 (F := Ideal) x t (ix1 b) = lossAt x (okOf t) (colOf t) b := by
  rw [val_main_v16_apply, val_main_v11_apply, val_main_v10_apply, val_main_cst_0_apply, val_main_v4_apply, pick_apply,
    val_main_v15_apply, val_main_v13_apply, val_main_v9_apply, val_main_v8_apply, val_main_v7_apply, val_main_cst_apply,
    col9_apply, val_main_v12_apply, val_main_cst_1_apply, val_main_v14_apply, val_main_cst_2_apply]
  rfl

/-- THE REFERENCE'S RESULT: the mean of the row losses. -/
theorem result_eq (x : (⟨S4096x50257, .f32⟩ : BufTy).Contents (Elt Ideal))
    (t : (⟨S4096, .i32⟩ : BufTy).Contents (Elt Ideal)) :
    Cert.ReferenceIdeal.ReadP.val_main_v18 (F := Ideal) x t
      = fun _ => Cert.LSLoss.G x (Cert.LSLoss.okOf t) (Cert.LSLoss.colOf t) := by
  funext i
  rw [val_main_v18_apply, val_main_v17_apply, val_main_cst_3_apply, val_main_cst_4_apply, sum_idx1]
  simp only [term_apply]
  show Ideal.div (Ideal.ofBits .f32 0x00000000#32 + ∑ b : Fin 4096, lossAt x (okOf t) (colOf t) b)
    (Ideal.ofBits .f32 0x45800000#32) = _
  rw [Ideal.ofBits_zero_f32]
  rfl

end Cert.ReferenceIdeal.RefValue

end
-- ==== Proof.KValueBlocks.lean ====
/-
  The windows' blocks read through to their arrays, and the fill value under the log-probability.

  The grid has 64 points; at point t every window's block is rows 64 t … 64 t + 63 of its array (all of the columns).
  So an element of a block at row r is the array's element at row 64 t + r.  The picked logit may be the fill value
  −∞; since −∞ − M − log S is −∞ again, the log-probability of a pick is the pick of the log-probability.
-/
import proofs.«175673_j29016799052387_2_alg».proof.Proof.Gen.KernelIdeal.Frame
import proofs.«175673_j29016799052387_2_alg».proof.Proof.Spec
import Idealize.ShloMosaic.Lib.ValueIdx
import Idealize.ShloMosaic.Lib.Pipeline.Value
import Idealize.ShloMosaic.PureOps.Ideal.Laws

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.LSLoss

variable (m : (ℓ : Loc nD τ sig) → Buf (Elt Ideal) ℓ)

/-- The printed index maps, decided over the grid: every window's block at point `t` is block `t` along the rows
    and block 0 along the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point `t` holds rows `64 t … 64 t + 63` of the logits as the region finds them. -/
theorem iblk0_apply (c : Dev nD) (t : Fin cfg0.N) (y : S64x50257.Idx) (k : S4096x50257.Idx)
    (hk0 : (k 0).val = 64 * t.val + (y 0).val) (hk1 : (k 1).val = (y 1).val) :
    (iblk m c 0 t : S64x50257.Idx → EReal) y = (V m c main_arg0 : S4096x50257.Idx → EReal) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 64 + 1 * (y 0).val = (k 0).val; omega
  | ⟨1, _⟩ => show win0_0.index t (1 : Fin 2) * 50257 + 1 * (y 1).val = (k 1).val; omega

/-- Window 1's block at point `t` holds rows `64 t … 64 t + 63` of the picked logits. -/
theorem iblk1_apply (c : Dev nD) (t : Fin cfg0.N) (y : S64x1.Idx) (k : S4096x1.Idx)
    (hk0 : (k 0).val = 64 * t.val + (y 0).val) :
    (iblk m c 1 t : S64x1.Idx → EReal) y = (V m c main_v1 : S4096x1.Idx → EReal) k := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 64 + 1 * (y 0).val = (k 0).val; omega
  | ⟨1, _⟩ =>
    show win0_1.index t (1 : Fin 2) * 1 + 1 * (y 1).val = (k 1).val
    have h1 : (y 1).val < 1 := (y 1).isLt
    have h2 : (k 1).val < 1 := (k 1).isLt
    omega

/-- Window 2's block at point `t` holds rows `64 t … 64 t + 63` of column 9's logits. -/
theorem iblk2_apply (c : Dev nD) (t : Fin cfg0.N) (y : S64x1.Idx) (k : S4096x1.Idx)
    (hk0 : (k 0).val = 64 * t.val + (y 0).val) :
    (iblk m c 2 t : S64x1.Idx → EReal) y = (V m c main_v2 : S4096x1.Idx → EReal) k := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 64 + 1 * (y 0).val = (k 0).val; omega
  | ⟨1, _⟩ =>
    show win0_2.index t (1 : Fin 2) * 1 + 1 * (y 1).val = (k 1).val
    have h1 : (y 1).val < 1 := (y 1).isLt
    have h2 : (k 1).val < 1 := (k 1).isLt
    omega

/-! ## The fill value and the log-probability -/

/-- The fill value, a quiet NaN's pattern, reads −∞ at the extended reals. -/
theorem fill_eq_bot : fill = ⊥ := by
  unfold fill
  simp [Ideal.ofBits, Ideal.ieee]

/-- The log-probability of a pick that may be the fill value: −∞ − M − log S is −∞ again, so the log-probability moves
    inside the select. -/
theorem logp_select (M S v : EReal) (ok : BitVec 1) :
    logp M S (Scalar.select ok v fill) = Scalar.select ok (logp M S v) fill := by
  rcases BitVec.eq_zero_or_eq_one ok with h | h <;> subst h
  · rw [select_zero, select_zero, fill_eq_bot]
    unfold logp
    rw [EReal.bot_sub, EReal.bot_sub]
  · rw [select_one, select_one]

end Cert.KernelIdeal.KValue

end
-- ==== Proof.OnlineLSE.lean ====
/-
  The online (chunked) log-sum-exp recurrence ends at the row maximum and the row's shifted exponential sum.

  For a row of real numbers f 0, f 1, … write, for a prefix length N,
      pm N   = max of f j over j < N            (−∞ for N = 0),
      ps N m = Σ_{j<N} exp (f j − m).
  One step of the recurrence over the chunk [N, N+n) takes (pm N, ps N (pm N)) to (pm (N+n), ps (N+n) (pm (N+n))):
  the maximum of a union is the larger of the two maxima, and, for real a and a',
      (Σ_{j<N} exp (f j − a)) · exp (a − a') = Σ_{j<N} exp (f j − a'),
  which is the distributive law and exp (u + v) = exp u · exp v in the real numbers (for N = 0 the old sum is 0 and
  0 times anything is 0).  Induction over the chunks gives the final pair, and the prefix of full length is the row.
-/
import proofs.«175673_j29016799052387_2_alg».proof.Proof.Spec

noncomputable section

namespace Cert.LSLoss

open Idealize.ShloMosaic

namespace OnlineLSE

/-- The maximum of the first `N` entries, −∞ for the empty prefix. -/
def pm (f : ℕ → ℝ) (N : ℕ) : EReal := (Finset.range N).sup (fun j => ((f j : ℝ) : EReal))

/-- The sum of the first `N` exponentials shifted by `m`. -/
def ps (f : ℕ → ℝ) (N : ℕ) (m : EReal) : EReal := ∑ j ∈ Finset.range N, Ideal.exp (((f j : ℝ) : EReal) - m)

/-- A fold of `max` from −∞ is the supremum. -/
theorem fold_max_eq_sup {ι : Type*} (s : Finset ι) (c : ι → EReal) : s.fold max ⊥ c = s.sup c := rfl

/-- The exponential of a difference of two real numbers is the real exponential. -/
theorem exp_coe_sub (x y : ℝ) : Ideal.exp ((x : EReal) - (y : EReal)) = ((Real.exp (x - y) : ℝ) : EReal) := by
  rw [← EReal.coe_sub]; rfl

/-- The inclusion of the real numbers commutes with finite sums. -/
theorem coe_finset_sum {ι : Type*} (s : Finset ι) (g : ι → ℝ) :
    ((∑ j ∈ s, g j : ℝ) : EReal) = ∑ j ∈ s, ((g j : ℝ) : EReal) := by
  classical
  induction s using Finset.induction_on with
  | empty => simp
  | insert a s ha ih => rw [Finset.sum_insert ha, Finset.sum_insert ha, EReal.coe_add, ih]

/-- The maximum of a nonempty prefix is a real number. -/
theorem pm_real (f : ℕ → ℝ) {N : ℕ} (hN : 0 < N) : ∃ a : ℝ, pm f N = (a : EReal) := by
  obtain ⟨i, _, hi⟩ := Finset.exists_mem_eq_sup (Finset.range N) ⟨0, Finset.mem_range.2 hN⟩
    (fun j => ((f j : ℝ) : EReal))
  exact ⟨f i, hi⟩

/-- The prefix maximum over `N + n` entries is the larger of the one over `N` and the chunk's. -/
theorem pm_add (f : ℕ → ℝ) (N n : ℕ) :
    max (pm f N) (Finset.univ.fold max ⊥ (fun j : Fin n => ((f (N + j.val) : ℝ) : EReal))) = pm f (N + n) := by
  rw [fold_max_eq_sup]
  apply le_antisymm
  · apply max_le
    · exact Finset.sup_mono (Finset.range_mono (Nat.le_add_right N n))
    · refine Finset.sup_le fun j _ => ?_
      exact Finset.le_sup (f := fun j => ((f j : ℝ) : EReal)) (Finset.mem_range.2 (by omega))
  · refine Finset.sup_le fun i hi => ?_
    rw [Finset.mem_range] at hi
    rcases lt_or_ge i N with h | h
    · exact le_max_of_le_left (Finset.le_sup (f := fun j => ((f j : ℝ) : EReal)) (Finset.mem_range.2 h))
    · refine le_max_of_le_right ?_
      have hj : i - N < n := by omega
      have := Finset.le_sup (f := fun j : Fin n => ((f (N + j.val) : ℝ) : EReal)) (Finset.mem_univ ⟨i - N, hj⟩)
      simpa [Nat.add_sub_cancel' h] using this

/-- The prefix sum over `N + n` entries splits into the one over `N` and the chunk's. -/
theorem ps_add (f : ℕ → ℝ) (N n : ℕ) (m : EReal) :
    ps f (N + n) m = ps f N m + ∑ j : Fin n, Ideal.exp (((f (N + j.val) : ℝ) : EReal) - m) := by
  unfold ps
  rw [Finset.sum_range_add, Fin.sum_univ_eq_sum_range (fun j => Ideal.exp (((f (N + j) : ℝ) : EReal) - m)) n]

/-- Rescaling: changing the shift from `a` to `a'` multiplies the sum by exp (a − a'). -/
theorem ps_rescale (f : ℕ → ℝ) (N : ℕ) (a a' : ℝ) :
    ps f N (a : EReal) * Ideal.exp ((a : EReal) - (a' : EReal)) = ps f N (a' : EReal) := by
  unfold ps
  simp only [exp_coe_sub]
  rw [← coe_finset_sum, ← coe_finset_sum, ← EReal.coe_mul, Finset.sum_mul]
  congr 1
  refine Finset.sum_congr rfl fun j _ => ?_
  rw [← Real.exp_add]
  congr 1
  ring

/-- One step of the recurrence over the chunk [N, N + n). -/
theorem olStep_prefix (f : ℕ → ℝ) (N n : ℕ) :
    olStep (fun j : Fin n => ((f (N + j.val) : ℝ) : EReal)) (pm f N, ps f N (pm f N))
      = (pm f (N + n), ps f (N + n) (pm f (N + n))) := by
  unfold olStep
  simp only [pm_add]
  refine Prod.ext rfl ?_
  simp only
  rw [ps_add]
  congr 1
  rcases Nat.eq_zero_or_pos N with rfl | hN
  · simp [ps]
  · obtain ⟨a, ha⟩ := pm_real f hN
    obtain ⟨a', ha'⟩ := pm_real f (show 0 < N + n by omega)
    rw [ha, ha']
    exact ps_rescale f N a a'

/-- The running pair after `k` full chunks. -/
theorem olIter_prefix (f : ℕ → ℝ) (k : ℕ) :
    olIter (fun j => ((f j : ℝ) : EReal)) k = (pm f (4096 * k), ps f (4096 * k) (pm f (4096 * k))) := by
  induction k with
  | zero => simp [olIter, pm, ps]
  | succ k ih =>
    have h := olStep_prefix f (4096 * k) 4096
    rw [show 4096 * k + 4096 = 4096 * (k + 1) from (Nat.mul_succ 4096 k).symm] at h
    rw [← h, ← ih]
    rfl

/-- The prefix of full length is the row: its maximum. -/
theorem pm_eq_rowMax (f : ℕ → ℝ) :
    pm f 50257 = rowMax (fun k : Fin 50257 => ((f k.val : ℝ) : EReal)) := by
  unfold rowMax pm
  rw [fold_max_eq_sup]
  apply le_antisymm
  · refine Finset.sup_le fun i hi => ?_
    exact Finset.le_sup (f := fun k : Fin 50257 => ((f k.val : ℝ) : EReal))
      (Finset.mem_univ ⟨i, Finset.mem_range.1 hi⟩)
  · refine Finset.sup_le fun k _ => ?_
    exact Finset.le_sup (f := fun j => ((f j : ℝ) : EReal)) (Finset.mem_range.2 k.isLt)

end OnlineLSE

open OnlineLSE in
/-- The online recurrence ends at the row maximum and the row's shifted exponential sum. -/
theorem online_lse (f : ℕ → ℝ) :
    olFinal (fun j => ((f j : ℝ) : EReal))
      = (rowMax (fun k : Fin 50257 => ((f k.val : ℝ) : EReal)), rowSum (fun k : Fin 50257 => ((f k.val : ℝ) : EReal))) := by
  have h := olStep_prefix f 49152 1105
  rw [show 49152 + 1105 = 50257 by norm_num] at h
  have hM := pm_eq_rowMax f
  have hS : ps f 50257 (pm f 50257) = rowSum (fun k : Fin 50257 => ((f k.val : ℝ) : EReal)) := by
    unfold rowSum ps
    rw [hM, Fin.sum_univ_eq_sum_range
      (fun j => Ideal.exp (((f j : ℝ) : EReal) - rowMax (fun k : Fin 50257 => ((f k.val : ℝ) : EReal)))) 50257]
  unfold olFinal
  rw [olIter_prefix f 12, show 4096 * 12 = 49152 by norm_num, h, hS, hM]

end Cert.LSLoss

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KBody.lean ====
/-
  The kernel body at one grid point, read row by row.

  The body keeps, for each of the block's 64 rows, the running pair (maximum, sum of exponentials shifted by it) over
  twelve chunks of 4096 columns and a last chunk of 1105, and stores the row's loss.  For a row of real numbers the
  pair ends at the row's maximum and its shifted exponential sum, so the stored value is the row loss of the two
  log-probabilities.
-/
import proofs.«175673_j29016799052387_2_alg».proof.Proof.Gen.KernelIdeal.Frame
import proofs.«175673_j29016799052387_2_alg».proof.Proof.Spec
import proofs.«175673_j29016799052387_2_alg».proof.Proof.OnlineLSE
import proofs.«175673_j29016799052387_2_alg».proof.Proof.LibColumnLayout
import Idealize.ShloMosaic.Lib.ValueIdx
import Idealize.ShloMosaic.Lib.Pipeline.Value
import Idealize.ShloMosaic.PureOps.Ideal.Laws

noncomputable section

namespace Cert.KernelIdeal.KBody

open Idealize.ShloMosaic Idealize.ShloMosaic.TcCoe Idealize.ShloMosaic.ValueIdx Idealize.SL.Sem Idealize.ShloMosaic.Tactic
open Cert.KernelIdeal Cert.KernelIdeal.Gen Cert.LSLoss

/-! ## Two printed words -/

/-- The pattern 0xFF800000 is −∞. -/
theorem ofBits_neg_inf : Ideal.ofBits .f32 0xFF800000#32 = (⊥ : EReal) := by
  show Ideal.ieee 8 23 (0xFF800000#32 : BitVec 32) = ⊥
  unfold Ideal.ieee
  have h1 : ((0xFF800000#32 : BitVec 32).extractLsb' 23 8).toNat = 2 ^ 8 - 1 := by decide
  have h2 : ((0xFF800000#32 : BitVec 32).extractLsb' 0 23).toNat = 0 := by decide
  have h3 : ((0xFF800000#32 : BitVec 32).extractLsb' (8 + 23) 1 == 1#1) = true := by decide
  simp only [h1, h2, h3]
  simp

/-! ## A block's rows: maximum and sum over the columns, kept as a column -/

section Rows

variable {n : ℕ}

/-- Row `r` of a vector of 64 with column `j` inserted is the entry (r, j). -/
theorem lift_ix1 (h : (⟨2, ![64, n]⟩ : Shape).Reduces [1] ⟨1, ![64]⟩) (r : Fin 64) (j : Fin n) :
    h.lift (ix1 r) j = ix2 r j := by
  funext a
  refine Fin.ext ?_
  match a with
  | ⟨0, _⟩ => rfl
  | ⟨1, _⟩ => rfl

/-- The maximum over the columns of a block of 64 rows, cast to a column: at row `r` the fold of `max` from −∞ over
    the row's entries. -/
theorem rowmax_col (v : FVec Ideal ⟨2, ![64, n]⟩ .f32) (h : (⟨2, ![64, n]⟩ : Shape).Reduces [1] ⟨1, ![64]⟩)
    (hφ : FKind.Formats .f32) (hacc : (0xFF800000#32 : BitVec 32) = FKind.maximumf.neutral .f32 hφ)
    (hc : (⟨1, ![64]⟩ : Shape).ShapeCasts ⟨2, ![64, 1]⟩) (r : Fin 64) :
    shapeCast ⟨2, ![64, 1]⟩ (multiReduction .maximumf [1] ⟨1, ![64]⟩ v 0xFF800000#32 h hφ hacc) hc (ix2 r 0)
      = Finset.univ.fold max ⊥ (fun j : Fin n => v (ix2 r j)) := by
  refine (shapeCast_a_a1_apply _ hc r 0).trans ?_
  refine (Ideal.multiReduction_maximumf_single v _ h hφ hacc (ix1 r)).trans ?_
  show (Finset.univ : Finset (Fin n)).fold max (Ideal.ofBits .f32 0xFF800000#32) (fun j => v (h.lift (ix1 r) j)) = _
  rw [ofBits_neg_inf]
  exact congrArg (Finset.univ.fold max ⊥) (funext fun j => congrArg v (lift_ix1 h r j))

/-- The sum over the columns of a block of 64 rows, cast to a column: at row `r` the sum of the row's entries. -/
theorem rowsum_col (v : FVec Ideal ⟨2, ![64, n]⟩ .f32) (h : (⟨2, ![64, n]⟩ : Shape).Reduces [1] ⟨1, ![64]⟩)
    (hφ : FKind.Formats .f32) (hacc : (0x00000000#32 : BitVec 32) = FKind.add.neutral .f32 hφ)
    (hc : (⟨1, ![64]⟩ : Shape).ShapeCasts ⟨2, ![64, 1]⟩) (r : Fin 64) :
    shapeCast ⟨2, ![64, 1]⟩ (multiReduction .add [1] ⟨1, ![64]⟩ v 0x00000000#32 h hφ hacc) hc (ix2 r 0)
      = ∑ j : Fin n, v (ix2 r j) := by
  refine (shapeCast_a_a1_apply _ hc r 0).trans ?_
  refine (Ideal.multiReduction_add_single v _ h hφ hacc (ix1 r)).trans ?_
  show ∑ j : Fin n, v (h.lift (ix1 r) j) = _
  exact Finset.sum_congr rfl fun j _ => congrArg v (lift_ix1 h r j)

end Rows

/-! ## One trip of the loop at a row -/

/-- The new maximum at row `r`: the larger of the carried one and the chunk's row maximum. -/
theorem pay3_row (m : FVec Ideal S64x1 .f32) (v : Vec Ideal S64x4096 .f32) (r : Fin 64) :
    k0_pay3 (F := Ideal) m v (ix2 r 0)
      = max (m (ix2 r 0)) (Finset.univ.fold max ⊥ (fun j : Fin 4096 => v (ix2 r j))) := by
  unfold k0_pay3
  exact congrArg (max (m (ix2 r 0))) (rowmax_col v _ _ _ _ r)

/-- The new sum at row `r`: the carried one rescaled by exp (old maximum − new maximum), plus the chunk's exponentials
    shifted by the new maximum. -/
theorem pay4_row (m l : FVec Ideal S64x1 .f32) (v : Vec Ideal S64x4096 .f32) (r : Fin 64) :
    k0_pay4 (F := Ideal) m l v (ix2 r 0)
      = l (ix2 r 0) * Ideal.exp (m (ix2 r 0) - k0_pay3 (F := Ideal) m v (ix2 r 0))
          + ∑ j : Fin 4096, Ideal.exp (v (ix2 r j) - k0_pay3 (F := Ideal) m v (ix2 r 0)) := by
  unfold k0_pay4
  refine congrArg (l (ix2 r 0) * Ideal.exp (m (ix2 r 0) - k0_pay3 (F := Ideal) m v (ix2 r 0)) + ·) ?_
  refine (rowsum_col _ _ _ _ _ r).trans ?_
  refine Finset.sum_congr rfl fun j _ => ?_
  exact congrArg (fun y => Ideal.exp (v (ix2 r j) - y)) (broadcastTo_a1_ab_apply _ _ r j)

/-- One trip at row `r` is one step of the running pair over the chunk's row. -/
theorem step_row (m l : FVec Ideal S64x1 .f32) (v : Vec Ideal S64x4096 .f32) (r : Fin 64) :
    (k0_pay3 (F := Ideal) m v (ix2 r 0), k0_pay4 (F := Ideal) m l v (ix2 r 0))
      = olStep (fun j : Fin 4096 => v (ix2 r j)) (m (ix2 r 0), l (ix2 r 0)) := by
  rw [pay4_row, pay3_row]
  rfl

/-! ## The loads -/

/-- The loop makes twelve trips. -/
theorem trips_eq : k0_t1_loop.trips = 12 := by decide

/-- Row `r` of a block as a function of the column number (0 past the last column). -/
def xrow (x0 : Vec Ideal S64x50257 .f32) (r : Fin 64) : ℕ → EReal :=
  fun n => if h : n < 50257 then x0 (ix2 r ⟨n, h⟩) else 0

/-- Trip `k` loads columns 4096 k … 4096 k + 4095: at (r, j) the block's entry (r, 4096 k + j). -/
theorem chunk_row (arg1 : Memref sig .tc .vmem S64x50257 .f32) (harg1 : arg1.IsWhole) (x0 : Vec Ideal S64x50257 .f32)
    (k : Fin k0_t1_loop.trips) (r : Fin 64) (j : Fin 4096) :
    View.readAt (Elt Ideal) arg1.view (Rect.unit (s := S64x50257) (k0_off1 k) S64x4096.size (k0_off1_inb k)).toLoadRect (harg1.unread x0) (ix2 r j)
      = xrow x0 r (4096 * k.val + j.val) := by
  have hk : k.val < 12 := trips_eq ▸ k.isLt
  rw [View.readAt_eq_ld, harg1.read_unread]
  unfold xrow
  rw [dif_pos (by omega)]
  show x0 _ = x0 _
  refine congrArg x0 (funext fun a => Fin.ext ?_)
  have e := k0_off1_eq k
  match a with
  | ⟨0, _⟩ =>
    show k0_off1 k 0 + 1 * r.val = r.val
    rw [e]; show 0 + 1 * r.val = r.val; omega
  | ⟨1, _⟩ =>
    show k0_off1 k 1 + 1 * j.val = 4096 * k.val + j.val
    rw [e]; show 4096 * k.val + 1 * j.val = 4096 * k.val + j.val; omega

/-- The last load, columns 49152 … 50256: at (r, j) the block's entry (r, 49152 + j). -/
theorem tail_row (arg1 : Memref sig .tc .vmem S64x50257 .f32) (harg1 : arg1.IsWhole) (x0 : Vec Ideal S64x50257 .f32)
    (r : Fin 64) (j : Fin 1105) :
    View.readAt (Elt Ideal) arg1.view (Rect.unit (s := S64x50257) ![0, 49152] S64x1105.size inb_S64x50257_S64x1105_0_49152).toLoadRect (harg1.unread x0) (ix2 r j)
      = xrow x0 r (49152 + j.val) := by
  rw [View.readAt_eq_ld, harg1.read_unread]
  unfold xrow
  rw [dif_pos (by omega)]
  show x0 _ = x0 _
  refine congrArg x0 (funext fun a => Fin.ext ?_)
  match a with
  | ⟨0, _⟩ => show 0 + 1 * r.val = r.val; omega
  | ⟨1, _⟩ => show 49152 + 1 * j.val = 49152 + j.val; omega

/-- A load of a whole [64, 1] block reads the block. -/
theorem whole_col (arg : Memref sig .tc .vmem S64x1 .f32) (harg : arg.IsWhole) (x : Vec Ideal S64x1 .f32) :
    View.readAt (Elt Ideal) arg.view (Rect.unit (s := S64x1) ![0, 0] S64x1.size inb_S64x1_S64x1_0_0).toLoadRect (harg.unread x) = x := by
  rw [View.readAt_eq_ld, harg.read_unread]
  exact View.ld_unit_zero (S := S64x1) (funext fun a => by match a with | ⟨0, _⟩ => rfl | ⟨1, _⟩ => rfl) _ x

/-! ## The loop -/

/-- What one trip yields: the two payloads of the carried pair and the trip's load. -/
theorem tripR_eq (𝒱 : Variants) (c : Dev nD) (bd : Option 𝒱.V) (i : grid0.Coords) (arg1 : Memref sig .tc .vmem S64x50257 .f32) (harg1 : arg1.IsWhole)
    (arg2 : Memref sig .tc .vmem S64x1 .f32) (harg2 : arg2.IsWhole) (arg3 : Memref sig .tc .vmem S64x1 .f32) (harg3 : arg3.IsWhole)
    (arg4 : Memref sig .tc .vmem S64x1 .f32) (harg4 : arg4.IsWhole) (X : BufTy.Contents (Elt Ideal) arg1.view.ty)
    (k : Fin k0_t1_loop.trips) (acc : FVec Ideal S64x1 .f32 × FVec Ideal S64x1 .f32) :
    tripR_k0_t1 (F := Ideal) 𝒱 c bd i arg1 harg1 arg2 harg2 arg3 harg3 arg4 harg4 X k acc
      = (k0_pay3 acc.1 (View.readAt (Elt Ideal) arg1.view (Rect.unit (s := S64x50257) (k0_off1 k) S64x4096.size (k0_off1_inb k)).toLoadRect X),
         k0_pay4 acc.1 acc.2 (View.readAt (Elt Ideal) arg1.view (Rect.unit (s := S64x50257) (k0_off1 k) S64x4096.size (k0_off1_inb k)).toLoadRect X)) := by
  unfold tripR_k0_t1 trip_k0_t1
  rfl

/-- The carried pair before trip `k`, at row `r`: the running pair after `k` chunks of the row. -/
theorem st_row (c : Dev nD) (i : grid0.Coords) (arg1 : Memref sig .tc .vmem S64x50257 .f32) (harg1 : arg1.IsWhole)
    (arg2 : Memref sig .tc .vmem S64x1 .f32) (harg2 : arg2.IsWhole) (arg3 : Memref sig .tc .vmem S64x1 .f32) (harg3 : arg3.IsWhole)
    (arg4 : Memref sig .tc .vmem S64x1 .f32) (harg4 : arg4.IsWhole) (x0 : Vec Ideal S64x50257 .f32) (r : Fin 64) :
    ∀ k : ℕ, k ≤ 12 →
      ((st_k0_t1 (F := Ideal) Variants.none c none i arg1 harg1 arg2 harg2 arg3 harg3 arg4 harg4 (harg1.unread x0) (k0_pay1, k0_pay2) k).1 (ix2 r 0),
       (st_k0_t1 (F := Ideal) Variants.none c none i arg1 harg1 arg2 harg2 arg3 harg3 arg4 harg4 (harg1.unread x0) (k0_pay1, k0_pay2) k).2 (ix2 r 0))
        = olIter (xrow x0 r) k
  | 0, _ => by
    show ((k0_pay1 (F := Ideal)) (ix2 r 0), (k0_pay2 (F := Ideal)) (ix2 r 0)) = (⊥, 0)
    show (Ideal.ofBits .f32 0xFF800000#32, Ideal.ofBits .f32 0x00000000#32) = ((⊥ : EReal), (0 : EReal))
    rw [ofBits_neg_inf, Ideal.ofBits_zero_f32]
  | k + 1, hk => by
    have ih := st_row c i arg1 harg1 arg2 harg2 arg3 harg3 arg4 harg4 x0 r k (by omega)
    have hk' : k < k0_t1_loop.trips := by rw [trips_eq]; omega
    have hs := st_k0_t1_succ (F := Ideal) Variants.none c none i arg1 harg1 arg2 harg2 arg3 harg3 arg4 harg4 (harg1.unread x0) (k0_pay1, k0_pay2) ⟨k, hk'⟩
    rw [show ((⟨k, hk'⟩ : Fin k0_t1_loop.trips).val + 1) = k + 1 from rfl, tripR_eq] at hs
    rw [hs]
    show (k0_pay3 _ _ (ix2 r 0), k0_pay4 _ _ _ (ix2 r 0)) = _
    rw [step_row, ih]
    show olStep _ _ = olStep _ _
    congr 1
    funext j
    exact chunk_row arg1 harg1 x0 ⟨k, hk'⟩ r j

/-! ## After the loop: the last chunk and the loss -/

/-- The maximum after the last chunk. -/
def tailM (m : FVec Ideal S64x1 .f32) (v4 : Vec Ideal S64x1105 .f32) : FVec Ideal S64x1 .f32 :=
  maximumf m (shapeCast S64x1 (multiReduction .maximumf [1] S64 v4 0xFF800000#32 reduces_S64x1105_S64 (.inl rfl) rfl) shapeCasts_S64_S64x1)

/-- The sum after the last chunk. -/
def tailL (m l : FVec Ideal S64x1 .f32) (v4 : Vec Ideal S64x1105 .f32) : FVec Ideal S64x1 .f32 :=
  addf (mulf l (exp (subf m (tailM m v4))))
    (shapeCast S64x1 (multiReduction .add [1] S64 (exp (subf v4 (broadcastTo S64x1105 (tailM m v4) broadcasts_S64x1_S64x1105)))
      0x00000000#32 reduces_S64x1105_S64 (.inl rfl) rfl) shapeCasts_S64_S64x1)

theorem tailM_row (m : FVec Ideal S64x1 .f32) (v4 : Vec Ideal S64x1105 .f32) (r : Fin 64) :
    tailM m v4 (ix2 r 0) = max (m (ix2 r 0)) (Finset.univ.fold max ⊥ (fun j : Fin 1105 => v4 (ix2 r j))) := by
  unfold tailM
  exact congrArg (max (m (ix2 r 0))) (rowmax_col v4 _ _ _ _ r)

theorem tailL_row (m l : FVec Ideal S64x1 .f32) (v4 : Vec Ideal S64x1105 .f32) (r : Fin 64) :
    tailL m l v4 (ix2 r 0)
      = l (ix2 r 0) * Ideal.exp (m (ix2 r 0) - tailM m v4 (ix2 r 0))
          + ∑ j : Fin 1105, Ideal.exp (v4 (ix2 r j) - tailM m v4 (ix2 r 0)) := by
  unfold tailL
  refine congrArg (l (ix2 r 0) * Ideal.exp (m (ix2 r 0) - tailM m v4 (ix2 r 0)) + ·) ?_
  refine (rowsum_col _ _ _ _ _ r).trans ?_
  refine Finset.sum_congr rfl fun j _ => ?_
  exact congrArg (fun y => Ideal.exp (v4 (ix2 r j) - y)) (broadcastTo_a1_ab_apply _ _ r j)

/-- The last chunk at row `r` is one more step of the running pair. -/
theorem tail_step_row (m l : FVec Ideal S64x1 .f32) (v4 : Vec Ideal S64x1105 .f32) (r : Fin 64) :
    (tailM m v4 (ix2 r 0), tailL m l v4 (ix2 r 0))
      = olStep (fun j : Fin 1105 => v4 (ix2 r j)) (m (ix2 r 0), l (ix2 r 0)) := by
  rw [tailL_row, tailM_row]
  rfl

/-- The stored value, entry by entry, over the pair after the last chunk. -/
theorem pay5_apply (m l : FVec Ideal S64x1 .f32) (v4 : Vec Ideal S64x1105 .f32) (v18 v20 : Vec Ideal S64x1 .f32) (i : S64x1.Idx) :
    k0_pay5 (F := Ideal) m l v4 v18 v20 i
      = Ideal.ofBits .f32 0x3F666666#32
            * (Ideal.ofBits .f32 0x00000000#32 - ((shapeCast S64x1 v18 shapeCasts_S64x1_S64x1 i - tailM m v4 i) - Ideal.log (tailL m l v4 i)))
          + max (Ideal.ofBits .f32 0x3F800000#32 - ((shapeCast S64x1 v20 shapeCasts_S64x1_S64x1 i - tailM m v4 i) - Ideal.log (tailL m l v4 i)))
                (-(Ideal.ofBits .f32 0x3F800000#32 - ((shapeCast S64x1 v20 shapeCasts_S64x1_S64x1 i - tailM m v4 i) - Ideal.log (tailL m l v4 i))))
              * Ideal.ofBits .f32 0x3DCCCCCD#32 * Ideal.ofBits .f32 0x3DCCCCCD#32 := rfl

/-- The stored value at row `r`: the row loss of the two log-probabilities, over the pair after the last chunk. -/
theorem pay5_row (m l : FVec Ideal S64x1 .f32) (v4 : Vec Ideal S64x1105 .f32) (v18 v20 : Vec Ideal S64x1 .f32) (r : Fin 64) :
    k0_pay5 (F := Ideal) m l v4 v18 v20 (ix2 r 0)
      = rowLoss (logp (olStep (fun j : Fin 1105 => v4 (ix2 r j)) (m (ix2 r 0), l (ix2 r 0))).1
                      (olStep (fun j : Fin 1105 => v4 (ix2 r j)) (m (ix2 r 0), l (ix2 r 0))).2 (v18 (ix2 r 0)))
                (logp (olStep (fun j : Fin 1105 => v4 (ix2 r j)) (m (ix2 r 0), l (ix2 r 0))).1
                      (olStep (fun j : Fin 1105 => v4 (ix2 r j)) (m (ix2 r 0), l (ix2 r 0))).2 (v20 (ix2 r 0))) := by
  have h := tail_step_row m l v4 r
  rw [pay5_apply, shapeCast_self, shapeCast_self, ← congrArg Prod.fst h, ← congrArg Prod.snd h]
  unfold rowLoss logp
  rw [Ideal.ofBits_zero_f32, zero_sub]

/-! ## The output block -/

theorem out_row (c : Dev nD) (i : grid0.Coords) (arg1 : Memref sig .tc .vmem S64x50257 .f32) (harg1 : arg1.IsWhole)
    (arg2 : Memref sig .tc .vmem S64x1 .f32) (harg2 : arg2.IsWhole) (arg3 : Memref sig .tc .vmem S64x1 .f32) (harg3 : arg3.IsWhole)
    (arg4 : Memref sig .tc .vmem S64x1 .f32) (harg4 : arg4.IsWhole)
    (x0 : Vec Ideal S64x50257 .f32) (x1 : Vec Ideal S64x1 .f32) (x2 : Vec Ideal S64x1 .f32) (r : Fin 64)
    (hfin : ∀ k : Fin 50257, ∃ a : ℝ, x0 (ix2 r k) = (a : EReal)) :
    out0_A_3 (F := Ideal) c i arg1 harg1 arg2 harg2 arg3 harg3 arg4 harg4 x0 x1 x2 (ix2 r 0)
      = rowLoss (logp (rowMax fun k => x0 (ix2 r k)) (rowSum fun k => x0 (ix2 r k)) (x1 (ix2 r 0)))
          (logp (rowMax fun k => x0 (ix2 r k)) (rowSum fun k => x0 (ix2 r k)) (x2 (ix2 r 0))) := by
  -- the row as real numbers
  let f : ℕ → ℝ := fun n => if h : n < 50257 then Classical.choose (hfin ⟨n, h⟩) else 0
  have hf : xrow x0 r = fun n => ((f n : ℝ) : EReal) := by
    funext n
    unfold xrow
    by_cases h : n < 50257
    · rw [dif_pos h]; show _ = ((f n : ℝ) : EReal)
      simp only [f, dif_pos h]
      exact Classical.choose_spec (hfin ⟨n, h⟩)
    · rw [dif_neg h]; simp only [f, dif_neg h]; rfl
  have hrow : (fun k : Fin 50257 => ((f k.val : ℝ) : EReal)) = fun k => x0 (ix2 r k) := by
    funext k
    have := congrFun hf k.val
    unfold xrow at this
    rw [dif_pos k.isLt] at this
    exact this.symm
  -- the running pair after the last chunk is the row's maximum and shifted sum
  have hfinal : olFinal (xrow x0 r) = (rowMax fun k => x0 (ix2 r k), rowSum fun k => x0 (ix2 r k)) := by
    rw [hf, online_lse f, hrow]
  -- the stored block
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero (S := S64x1) (funext fun a => by match a with | ⟨0, _⟩ => rfl | ⟨1, _⟩ => rfl)]
  rw [whole_col, whole_col, pay5_row]
  have h12 : Scf.trips k0_t1_loop.lb k0_t1_loop.ub k0_t1_loop.st = 12 := trips_eq
  rw [h12, st_row c i arg1 harg1 arg2 harg2 arg3 harg3 arg4 harg4 x0 r 12 le_rfl]
  have hT : (fun j : Fin 1105 => View.readAt (Elt Ideal) arg1.view (Rect.unit (s := S64x50257) ![0, 49152] S64x1105.size inb_S64x50257_S64x1105_0_49152).toLoadRect (harg1.unread x0) (ix2 r j))
      = fun j : Fin 1105 => xrow x0 r (49152 + j.val) := funext fun j => tail_row arg1 harg1 x0 r j
  rw [hT]
  show rowLoss (logp (olFinal (xrow x0 r)).1 (olFinal (xrow x0 r)).2 _) (logp (olFinal (xrow x0 r)).1 (olFinal (xrow x0 r)).2 _) = _
  rw [hfinal]

end Cert.KernelIdeal.KBody

end
-- ==== Proof.KValueFlush.lean ====
/-
  From the body's value at one grid point to the output array.

  At point t the body leaves in the output block, at row r, the loss of row 64 t + r of the logits (the body's value
  read row by row, the three input blocks read through to their arrays); that is block t of the column of row losses.
  The 64 blocks tile the [4096,1] output array (row b lies in the block of point b / 64), so the array ends holding
  that column.  The contents of the two arrays the host wrote before the region are taken as hypotheses here.
-/
import proofs.«175673_j29016799052387_2_alg».proof.Proof.KValueBlocks
import proofs.«175673_j29016799052387_2_alg».proof.Proof.KBody

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.LSLoss

variable (m : (ℓ : Loc nD τ sig) → Buf (Elt Ideal) ℓ)

/-! ## What the output array ends holding -/

/-- The logits as launched. -/
abbrev X (c : Dev nD) : SX.Idx → EReal := m ((c.tc : Thread nD τ).loc main_arg0)
/-- The picking indices as launched. -/
abbrev T (c : Dev nD) : ST.Idx → BitVec 32 := m ((c.tc : Thread nD τ).loc main_arg1)

/-- The row losses as a column: what the kernel's output array ends holding. -/
def Gout (c : Dev nD) : S4096x1.Idx → EReal := fun i => lossAt (X m c) (okOf (T m c)) (colOf (T m c)) (i 0)

/-- The body's stored value at row `r` of a block whose row `r` is row `b` of real logits `x`, whose pick at row `r` is
    the pick of row `b` and whose third block holds column 9: row `b`'s loss. -/
theorem out_row_loss (c : Dev nD) (i : grid0.Coords) (arg1 : Memref sig .tc .vmem S64x50257 .f32) (harg1 : arg1.IsWhole)
    (arg2 : Memref sig .tc .vmem S64x1 .f32) (harg2 : arg2.IsWhole) (arg3 : Memref sig .tc .vmem S64x1 .f32) (harg3 : arg3.IsWhole)
    (arg4 : Memref sig .tc .vmem S64x1 .f32) (harg4 : arg4.IsWhole)
    (x0 : Vec Ideal S64x50257 .f32) (x1 : Vec Ideal S64x1 .f32) (x2 : Vec Ideal S64x1 .f32) (r : Fin 64)
    (x : SX.Idx → EReal) (ok : Fin 4096 → BitVec 1) (col : Fin 4096 → Fin 50257) (b : Fin 4096)
    (hx0 : ∀ k : Fin 50257, x0 (ix2 r k) = x (ix2 b k))
    (hfin : ∀ k : Fin 50257, ∃ a : ℝ, x (ix2 b k) = (a : EReal))
    (hx1 : x1 (ix2 r 0) = Scalar.select (ok b) (x (ix2 b (col b))) fill)
    (hx2 : x2 (ix2 r 0) = x (ix2 b ⟨9, by decide⟩)) :
    out0_A_3 (F := Ideal) c i arg1 harg1 arg2 harg2 arg3 harg3 arg4 harg4 x0 x1 x2 (ix2 r 0) = lossAt x ok col b := by
  rw [KBody.out_row c i arg1 harg1 arg2 harg2 arg3 harg3 arg4 harg4 x0 x1 x2 r
    (fun k => by obtain ⟨a, ha⟩ := hfin k; exact ⟨a, (hx0 k).trans ha⟩)]
  have hrow : (fun k : Fin 50257 => x0 (ix2 r k)) = row x b := funext hx0
  rw [hrow, hx1, hx2, logp_select]
  rfl

/-- WHAT POINT `t` WRITES BACK is block `t` of the column of row losses, when the logits are real numbers, the second
    window's array holds the picks and the third's column 9. -/
theorem flushed_eq (c : Dev nD)
    (hfin : ∀ i : S4096x50257.Idx, ∃ a : ℝ, X m c i = (a : EReal))
    (hv1 : ∀ b : Fin 4096, (V m c main_v1 : S4096x1.Idx → EReal) (ix2 b 0)
        = Scalar.select (okOf (T m c) b) (X m c (ix2 b (colOf (T m c) b))) fill)
    (hv2 : ∀ b : Fin 4096, (V m c main_v2 : S4096x1.Idx → EReal) (ix2 b 0) = X m c (ix2 b ⟨9, by decide⟩))
    (t : Fin cfg0.N) :
    (dats m 0 c).flushed 3 t = ((cfg0.win 3).blk t).view.read (Elt Ideal) (Gout m c) := by
  have ht : t.val < 64 := lt_of_lt_of_eq t.isLt N_0
  obtain ⟨-, -, -, -, -, -, e0, e1⟩ := idx_facts t
  show (cfg0.win 3).cut (grid0.coords t) ((dats m 0 c).after 3 t) = _
  rw [after0_3]
  unfold outsAt0
  funext y
  rw [View.read_apply]
  have hy0 : (y 0).val < 64 := (y 0).isLt
  have hy1 : (y 1).val < 1 := (y 1).isLt
  have hb : 64 * t.val + (y 0).val < 4096 := by omega
  have hxy : (cfg0.win 3).xinj (grid0.coords t) y = (ix2 (⟨(y 0).val, hy0⟩ : Fin 64) (0 : Fin 1) : S64x1.Idx) := by
    funext a; apply Fin.ext
    match a with
    | ⟨0, _⟩ => rfl
    | ⟨1, _⟩ => show (y 1).val = 0; omega
  have hemb : ((cfg0.win 3).blk t).view.emb y = (ix2 (⟨64 * t.val + (y 0).val, hb⟩ : Fin 4096) (0 : Fin 1) : S4096x1.Idx) := by
    funext a; apply Fin.ext
    match a with
    | ⟨0, _⟩ => show win0_3.index t (0 : Fin 2) * 64 + 1 * (y 0).val = 64 * t.val + (y 0).val; omega
    | ⟨1, _⟩ => show win0_3.index t (1 : Fin 2) * 1 + 1 * (y 1).val = 0; omega
  refine (congrArg (out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t)) hxy).trans ?_
  refine (out_row_loss c (grid0.coords t) (ms0_0 t) (hs0_0 t) (ms0_1 t) (hs0_1 t) (ms0_2 t) (hs0_2 t) (ms0_3 t) (hs0_3 t) (iblk m c 0 t) (iblk m c 1 t) (iblk m c 2 t) ⟨(y 0).val, hy0⟩ (X m c) (okOf (T m c)) (colOf (T m c)) ⟨64 * t.val + (y 0).val, hb⟩ ?_ ?_ ?_ ?_).trans ?_
  · intro k
    rw [iblk0_apply m c t (ix2 ⟨(y 0).val, hy0⟩ k) (ix2 ⟨64 * t.val + (y 0).val, hb⟩ k) rfl rfl, V_main_arg0]
  · intro k; exact hfin _
  · rw [iblk1_apply m c t (ix2 ⟨(y 0).val, hy0⟩ 0) (ix2 ⟨64 * t.val + (y 0).val, hb⟩ 0) rfl, hv1]
  · rw [iblk2_apply m c t (ix2 ⟨(y 0).val, hy0⟩ 0) (ix2 ⟨64 * t.val + (y 0).val, hb⟩ 0) rfl, hv2]
  · rw [hemb]; rfl

/-- An index of the output array is in point `t`'s block iff each coordinate is in the block's range on its axis. -/
theorem mem_blk (t : Fin cfg0.N) (i : S4096x1.Idx) :
    i ∈ ((cfg0.win 3).blk t).view.set ↔ ∀ a : Fin 2, win0_3.index t a * S64x1.size a ≤ (i a).val
      ∧ (i a).val < win0_3.index t a * S64x1.size a + S64x1.size a := by
  show i ∈ ((View.whole main_v3).slice (win0_3.rect t)).set ↔ _
  rw [View.set_slice_whole, Rect.mem_set_unit]
  exact Iff.rfl

/-- Every index of the output array is in the block of the point its row divided by 64 names. -/
theorem cover (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, htv⟩ : ∃ t : Fin cfg0.N, t.val = (i 0).val / 64 :=
    ⟨⟨(i 0).val / 64, lt_of_lt_of_eq (by omega : (i 0).val / 64 < 64) N_0.symm⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 64 ≤ (i 0).val ∧ (i 0).val < win0_3.index t (0 : Fin 2) * 64 + 64
    omega
  | ⟨1, _⟩ =>
    show win0_3.index t (1 : Fin 2) * 1 ≤ (i 1).val ∧ (i 1).val < win0_3.index t (1 : Fin 2) * 1 + 1
    omega

/-- THE OUTPUT ARRAY after the run: the column of row losses. -/
theorem final3 (c : Dev nD)
    (hfin : ∀ i : S4096x50257.Idx, ∃ a : ℝ, X m c i = (a : EReal))
    (hv1 : ∀ b : Fin 4096, (V m c main_v1 : S4096x1.Idx → EReal) (ix2 b 0)
        = Scalar.select (okOf (T m c) b) (X m c (ix2 b (colOf (T m c) b))) fill)
    (hv2 : ∀ b : Fin 4096, (V m c main_v2 : S4096x1.Idx → EReal) (ix2 b 0) = X m c (ix2 b ⟨9, by decide⟩)) :
    (dats m 0 c).arrAt 3 cfg0.N = Gout m c :=
  (dats m 0 c).arrAt_eq_of_cover 3 (Gout m c) (fun t _ => flushed_eq m c hfin hv1 hv2 t) cover

end Cert.KernelIdeal.KValue

end
-- ==== Proof.KHost.lean ====
/-
  The two columns the kernel's launch reads beside the logits, as the host lines before the launch leave them.

  Before its one launch the kernel program computes, from the logits x : [4096, 50257] and the picking indices
  t : [4096], two columns of shape [4096, 1]:

    * the PICKED logit of each row — a picking index below zero is counted from the end of the row (50257 is added
      once), the index is tested for lying in 0 … 50256, the row is read at the index clamped into that range, and
      where the test fails the fill value stands instead;
    * column 9 of the logits.

  This module reads both at a row b.  The picking is stated first as ONE function of (x, t) — the composition of the
  operations, entry by entry over whole arrays (`pick`) — which the contents of the column's buffer at the launch are
  shown to be; that function is then read at the row b, one operation at a time, down to the scalar forms of the
  specification (`okOf`, `colOf`, `fill`).
-/
import proofs.«175673_j29016799052387_2_alg».proof.Proof.Gen.KernelIdeal.Frame.Runs
import proofs.«175673_j29016799052387_2_alg».proof.Proof.Spec
import proofs.«175673_j29016799052387_2_alg».proof.Proof.LibTypedRead
import proofs.«175673_j29016799052387_2_alg».proof.Proof.LibTypedHEq
import proofs.«175673_j29016799052387_2_alg».proof.Proof.LibColGather
import Idealize.ShloMosaic.Lib.Pipeline.Value
import Idealize.ShloMosaic.Lib.ValueIdx

noncomputable section

namespace Cert.KernelIdeal.KHost

open Idealize.ShloMosaic Idealize.ShloMosaic.TcCoe Idealize.ShloMosaic.ValueIdx
open Idealize.ShloMosaic.StableHlo

/-! ## The picking as one function of the logits and the indices -/

/-- The picking indices as a column, negative ones counted from the end of the row, with a third unit axis. -/
def wrapIdx (tt : IVec S4096 32) : IVec S4096x1x1 32 :=
  shapeCast S4096x1x1
    (select
      (cmpi .slt (broadcastInDim S4096x1 ![0] Gen.bcast_S4096_S4096x1_0 tt)
        (broadcastInDim S4096x1 ![] Gen.bcast_S_S4096x1 (constantI S_ 32 0#32)))
      (addi (broadcastInDim S4096x1 ![0] Gen.bcast_S4096_S4096x1_0 tt)
        (broadcastInDim S4096x1 ![] Gen.bcast_S_S4096x1 (constantI S_ 32 50257#32)))
      (broadcastInDim S4096x1 ![0] Gen.bcast_S4096_S4096x1_0 tt))
    Gen.shapeCasts_S4096x1_S4096x1x1

/-- Where the (wrapped) index lies in 0 … 50256, as a column of bits. -/
def inRange (tt : IVec S4096 32) : IVec S4096x1 1 :=
  Host.reduce IntOp.andi
    (andi
      (cmpi .sge (wrapIdx tt) (broadcastInDim S4096x1x1 ![] Gen.bcast_S_S4096x1x1 (constantI S_ 32 0#32)))
      (cmpi .sle (wrapIdx tt)
        (broadcastInDim S4096x1x1 ![0, 1, 2] Gen.bcast_S1x1x1_S4096x1x1_0_1_2
          (broadcastInDim S1x1x1 ![2] Gen.bcast_S1_S1x1x1_2 (constantI S1 32 50256#32)))))
    (constantI S_ 1 1#1) Gen.reducesTo_S4096x1x1_S4096x1_d2 Gen.h_S_

/-- The column of picked logits: the row read at its index where the index is in range, the fill value elsewhere. -/
def pick (x : S4096x50257.Idx → EReal) (tt : IVec S4096 32) : S4096x1.Idx → EReal :=
  select (inRange tt)
    (Host.gather gather_S4096x50257_S4096x1x1_S4096x1_n_1_0_0_1_2_11 x (wrapIdx tt))
    (broadcastInDim S4096x1 ![] Gen.bcast_S_S4096x1 (constant (F := Ideal) S_ .f32 0x7FC00000#32))

/-! ## The picking read at a row -/

/-- A scalar spread over a column reads as the scalar. -/
theorem bcast_scalar_col {α : Type} (v : S_.Idx → α) (j : S4096x1.Idx) :
    broadcastInDim S4096x1 ![] Gen.bcast_S_S4096x1 v j = v ix0 :=
  broadcastInDim_apply _ _ v j ix0 (fun a => a.elim0)

/-- A scalar spread over a column with a third unit axis reads as the scalar. -/
theorem bcast_scalar_col3 {α : Type} (v : S_.Idx → α) (j : S4096x1x1.Idx) :
    broadcastInDim S4096x1x1 ![] Gen.bcast_S_S4096x1x1 v j = v ix0 :=
  broadcastInDim_apply _ _ v j ix0 (fun a => a.elim0)

/-- The indices spread to a column: row `b` holds index `b`. -/
theorem bcast_tt (tt : IVec S4096 32) (b : Fin 4096) :
    broadcastInDim S4096x1 ![0] Gen.bcast_S4096_S4096x1_0 tt (ix2 b 0) = tt (ix1 b) :=
  broadcastInDim_apply _ _ tt (ix2 b 0) (ix1 b) (fun a => by
    match a with
    | ⟨0, _⟩ => rfl)

/-- Row `b` of the wrapped index column: the specification's wrapped index of row `b`. -/
theorem wrapIdx_apply (tt : IVec S4096 32) (b : Fin 4096) :
    wrapIdx tt (ix3 b 0 0) = Cert.LSLoss.wrapped (tt (ix1 b)) := by
  unfold wrapIdx
  refine (shapeCast_apply _ Gen.shapeCasts_S4096x1_S4096x1x1 (ix3 b 0 0) (ix2 b 0) ?_).trans ?_
  · rw [Shape.rowMajor_val_two, Shape.rowMajor_val_three]
    show b.val * 1 + 0 = (b.val * 1 + 0) * 1 + 0
    omega
  · rw [select_apply]
    show Scalar.select (IntOp.cmpi .slt (broadcastInDim S4096x1 ![0] Gen.bcast_S4096_S4096x1_0 tt (ix2 b 0))
        (broadcastInDim S4096x1 ![] Gen.bcast_S_S4096x1 (constantI S_ 32 0#32) (ix2 b 0)))
      (IntOp.addi (broadcastInDim S4096x1 ![0] Gen.bcast_S4096_S4096x1_0 tt (ix2 b 0))
        (broadcastInDim S4096x1 ![] Gen.bcast_S_S4096x1 (constantI S_ 32 50257#32) (ix2 b 0)))
      (broadcastInDim S4096x1 ![0] Gen.bcast_S4096_S4096x1_0 tt (ix2 b 0)) = _
    rw [bcast_tt, bcast_scalar_col, bcast_scalar_col]
    rfl

/-- The upper bound 50256, spread from one word to the three-axis column, reads as the word. -/
theorem bcast_hi (j : S4096x1x1.Idx) :
    broadcastInDim S4096x1x1 ![0, 1, 2] Gen.bcast_S1x1x1_S4096x1x1_0_1_2
      (broadcastInDim S1x1x1 ![2] Gen.bcast_S1_S1x1x1_2 (constantI S1 32 50256#32)) j = 50256#32 := by
  refine (broadcastInDim_apply _ _ _ j (ix3 0 0 0) (fun a => by
    match a with
    | ⟨0, _⟩ => rfl
    | ⟨1, _⟩ => rfl
    | ⟨2, _⟩ => rfl)).trans ?_
  refine (broadcastInDim_apply _ _ _ (ix3 0 0 0) (ix1 0) (fun a => by
    match a with
    | ⟨0, _⟩ => rfl)).trans ?_
  rfl

/-- Row `b` of the range test: the specification's test of row `b`. -/
theorem inRange_apply (tt : IVec S4096 32) (b : Fin 4096) :
    inRange tt (ix2 b 0) = Cert.LSLoss.okOf tt b := by
  unfold inRange
  refine (Cert.ColGather.reduce_and_unit_apply _ _ _ b).trans ?_
  show IntOp.andi
      (IntOp.cmpi .sge (wrapIdx tt (ix3 b 0 0))
        (broadcastInDim S4096x1x1 ![] Gen.bcast_S_S4096x1x1 (constantI S_ 32 0#32) (ix3 b 0 0)))
      (IntOp.cmpi .sle (wrapIdx tt (ix3 b 0 0))
        (broadcastInDim S4096x1x1 ![0, 1, 2] Gen.bcast_S1x1x1_S4096x1x1_0_1_2
          (broadcastInDim S1x1x1 ![2] Gen.bcast_S1_S1x1x1_2 (constantI S1 32 50256#32)) (ix3 b 0 0))) = _
  rw [wrapIdx_apply, bcast_scalar_col3, bcast_hi]
  rfl

/-- THE PICKED COLUMN AT ROW `b`: the logit of row `b` at the specification's column where its test holds, the fill
    value elsewhere. -/
theorem pick_apply (x : S4096x50257.Idx → EReal) (tt : IVec S4096 32) (b : Fin 4096) :
    pick x tt (ix2 b 0)
      = Scalar.select (Cert.LSLoss.okOf tt b) (x (ix2 b (Cert.LSLoss.colOf tt b))) Cert.LSLoss.fill := by
  unfold pick
  rw [select_apply, inRange_apply, bcast_scalar_col]
  refine congrArg (fun v => Scalar.select (Cert.LSLoss.okOf tt b) v _) ?_
  refine (Cert.ColGather.gather_col_apply (by norm_num) _ x (wrapIdx tt) b).trans ?_
  refine congrArg x (congrArg (ix2 b) (Fin.ext ?_))
  show min (wrapIdx tt (ix3 b 0 0)).toInt.toNat (50257 - 1) = min (Cert.LSLoss.wrapped (tt (ix1 b))).toInt.toNat 50256
  rw [wrapIdx_apply]

/-! ## The two columns as the launch finds them -/

variable (m : (ℓ : Loc nD τ sig) → Buf (Elt Ideal) ℓ)

/-- The picked column's buffer at the launch holds `pick` of the two arguments as launched. -/
theorem V_v1_eq (c : Dev nD) :
    (Gen.V m c main_v1 : S4096x1.Idx → EReal)
      = pick (m ((c.tc : Thread nD τ).loc main_arg0)) (m ((c.tc : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results_simp
  simp only [Cert.TypedRead.ofBuf_toBuf]
  have e1 : ∀ (h1 h2 h3) (v : (⟨S4096x1, .f32⟩ : BufTy).Contents (Elt Ideal)),
      (TRef.of (T := ⟨S4096x1, .f32⟩) main_v1 h1 h2 h3).toBuf v = v :=
    fun h1 h2 h3 v => eq_of_heq (Cert.TypedRead.toBuf_heq (TRef.of (T := ⟨S4096x1, .f32⟩) main_v1 h1 h2 h3) v)
  have e2 : ∀ (h1 h2 h3) (v : (⟨S4096x1x1, .i32⟩ : BufTy).Contents (Elt Ideal)),
      (TRef.of (T := ⟨S4096x1x1, .i32⟩) main_call0_v5 h1 h2 h3).ofBuf v = v :=
    fun h1 h2 h3 v => eq_of_heq (Cert.TypedRead.ofBuf_heq (TRef.of (T := ⟨S4096x1x1, .i32⟩) main_call0_v5 h1 h2 h3) v)
  have e3 : ∀ (h1 h2 h3) (v : (⟨S4096x1, .i32⟩ : BufTy).Contents (Elt Ideal)),
      (TRef.of (T := ⟨S4096x1, .i32⟩) main_call0_v4 h1 h2 h3).toBuf v = v :=
    fun h1 h2 h3 v => eq_of_heq (Cert.TypedRead.toBuf_heq (TRef.of (T := ⟨S4096x1, .i32⟩) main_call0_v4 h1 h2 h3) v)
  have e4 : ∀ (h1 h2 h3) (v : (⟨S4096x1, .i32⟩ : BufTy).Contents (Elt Ideal)),
      (TRef.of (T := ⟨S4096x1, .i32⟩) main_v0 h1 h2 h3).ofBuf v = v :=
    fun h1 h2 h3 v => eq_of_heq (Cert.TypedRead.ofBuf_heq (TRef.of (T := ⟨S4096x1, .i32⟩) main_v0 h1 h2 h3) v)
  have e5 : ∀ (h1 h2 h3) (v : (⟨S4096x50257, .f32⟩ : BufTy).Contents (Elt Ideal)),
      (TRef.of (T := ⟨S4096x50257, .f32⟩) main_arg0 h1 h2 h3).ofBuf v = v :=
    fun h1 h2 h3 v => eq_of_heq (Cert.TypedRead.ofBuf_heq (TRef.of (T := ⟨S4096x50257, .f32⟩) main_arg0 h1 h2 h3) v)
  simp only [e1, e2, e3, e4, e5]
  unfold pick inRange wrapIdx
  rfl

/-- THE PICKED COLUMN AS THE LAUNCH FINDS IT, AT ROW `b`. -/
theorem V_v1_apply (c : Dev nD) (b : Fin 4096) :
    (Gen.V m c main_v1 : S4096x1.Idx → EReal) (ix2 b 0)
      = Scalar.select (Cert.LSLoss.okOf (m ((c.tc : Thread nD τ).loc main_arg1)) b)
          ((m ((c.tc : Thread nD τ).loc main_arg0) : S4096x50257.Idx → EReal)
            (ix2 b (Cert.LSLoss.colOf (m ((c.tc : Thread nD τ).loc main_arg1)) b)))
          Cert.LSLoss.fill :=
  (congrFun (V_v1_eq m c) (ix2 b 0)).trans (pick_apply _ _ b)

/-- The other column's buffer at the launch holds the slice of the logits at column 9. -/
theorem V_v2_eq (c : Dev nD) :
    (Gen.V m c main_v2 : S4096x1.Idx → EReal)
      = extractStridedSlice S4096x1 ![0, 9] (m ((c.tc : Thread nD τ).loc main_arg0))
          Gen.slices_S4096x50257_S4096x1_0_9 := by
  dsimp only [Gen.V, Gen.V0]
  simp only [Gen.hostOps0, Gen.hostOps0_1, Gen.hostOps0_2, List.flatten_cons, List.flatten_nil, List.append_nil,
    List.cons_append, List.nil_append]
  after_results_simp

/-- COLUMN 9 AS THE LAUNCH FINDS IT, AT ROW `b`. -/
theorem V_v2_apply (c : Dev nD) (b : Fin 4096) :
    (Gen.V m c main_v2 : S4096x1.Idx → EReal) (ix2 b 0)
      = (m ((c.tc : Thread nD τ).loc main_arg0) : S4096x50257.Idx → EReal) (ix2 b ⟨9, by decide⟩) :=
  (congrFun (V_v2_eq m c) (ix2 b 0)).trans
    (extractStridedSlice_apply _ _ Gen.slices_S4096x50257_S4096x1_0_9 (ix2 b 0) (ix2 b ⟨9, by decide⟩) (fun a => by
      match a with
      | ⟨0, _⟩ => show b.val = 0 + b.val; omega
      | ⟨1, _⟩ => rfl))

end Cert.KernelIdeal.KHost

end
-- ==== Proof.KValueRun.lean ====
/-
  The host's last lines and the kernel program's run.

  After the region the host sums the output array over both axes from 0 and divides by the printed 4096.  The output
  array is the column of row losses, so the sum over its index set is the sum over the 4096 rows and the result buffer
  ends at the mean of the row losses, the function both programs are compared to.  The run: the generated frame run's
  post read at the result buffer (no array of the pipeline: what the host's last lines leave there) and at the two
  arguments (unchanged).
-/
import proofs.«175673_j29016799052387_2_alg».proof.Proof.KValueFlush
import proofs.«175673_j29016799052387_2_alg».proof.Proof.KHost
import Idealize.ShloMosaic.Lib.Tactic

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.LSLoss

variable (m : (ℓ : Loc nD τ sig) → Buf (Elt Ideal) ℓ) (ρ : Dev nD → PrngReg)

/-- THE RESULT BUFFER after the host's last lines: the output array summed from 0 over both axes and divided by the
    printed 4096 — the mean of the row losses. -/
theorem tail_v5 (c : Dev nD) (hfin : ∀ i : S4096x50257.Idx, ∃ a : ℝ, X m c i = (a : EReal)) :
    Pipeline.afterTail₀ cfgs (dats m) 0 (V0 m) [hostOps1] c main_v5
      = fun _ => G (X m c) (okOf (T m c)) (colOf (T m c)) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v3)
      = Gout m c :=
    (Pipeline.withArrays_arr spec0 launch0.win.arr_inj c _ _ 3).trans
      (final3 m c hfin (KHost.V_v1_apply m c) (KHost.V_v2_apply m c))
  rw [e]
  funext j
  show Ideal.div (Ideal.hostReduceAdd _ (Gout m c) (Ideal.ofBits .f32 0x00000000#32) j) (Ideal.ofBits .f32 0x45800000#32) = _
  rw [Ideal.hostReduceAdd_total _ (fun b => b.elim0), Ideal.ofBits_zero_f32, sum_idx2]
  unfold G Gout
  simp only [Fin.sum_univ_one]

/-- THE RUN of the kernel program, read: from any memory whose logits are real numbers, every execution ends with the
    result buffer at the mean of the row losses and the two arguments as launched. -/
theorem run
    (hfin : ∀ (c : Dev nD) (i : S4096x50257.Idx), ∃ a : ℝ,
      (m ((c.tc : Thread nD τ).loc main_arg0) : S4096x50257.Idx → EReal) i = (a : EReal)) :
    θ_run (defs (F := Ideal)) (onTc (τ := τ) (main (F := Ideal))) ⟨m, fun _ => 0, ρ⟩ (fun r => ∀ c : Dev nD,
      r.2.mem ((c.tc : Thread nD τ).loc main_v5)
          = (fun _ => Cert.LSLoss.G (m ((c.tc : Thread nD τ).loc main_arg0))
              (Cert.LSLoss.okOf (m ((c.tc : Thread nD τ).loc main_arg1)))
              (Cert.LSLoss.colOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v5 (Pipeline.mem_restRefs_of main_v5 (by decide) (by decide))).trans (tail_v5 m c (hfin c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KValue

end
-- ==== Proof.lean ====
/-
  The kernel and the reference compute one function of the logits and the picking indices: the mean, over the 4096
  rows, of the label-smoothing loss  c · (−ℓ_t) + |1 − ℓ_9| · d · d,  where ℓ_k = (x_k − M) − log S is the
  log-probability of column k of the row, M the row's maximum and S = Σ_k exp (x_k − M).

  The reference takes M and S from the whole row (one maximum, one shifted exponential sum).  The kernel walks the row
  in twelve chunks of 4096 columns and a last one of 1105, carrying the running maximum m and the sum of exp (x_k − m)
  over the columns seen, rescaled by exp (m − m') whenever the maximum grows to m'; for a row of real numbers the pair
  it ends with is (M, S) — the maximum of a union is the larger of the maxima, and
  (Σ exp (x_k − m)) · exp (m − m') = Σ exp (x_k − m') in the real numbers.  The precondition (every |x| below +∞)
  makes every logit a real number.  The picked column is read at the index wrapped once from the end and clamped into
  the row; where the wrapped index is out of range both programs put the same fill value (−∞ at the extended reals) in
  place of the log-probability, and it passes through the row's loss unchanged on both sides.  The row losses are
  summed from 0 and divided by 4096 in both.  So each program ends with the value G of the specification at its own
  arguments, and the arguments agree.
-/
import proofs.«175673_j29016799052387_2_alg».proof.Defs
import proofs.«175673_j29016799052387_2_alg».proof.Proof.Gen.Kernel
import proofs.«175673_j29016799052387_2_alg».proof.Proof.Gen.Kernel.Skeleton
import proofs.«175673_j29016799052387_2_alg».proof.Proof.Gen.Kernel.Loops
import proofs.«175673_j29016799052387_2_alg».proof.Proof.Gen.Kernel.Launch
import proofs.«175673_j29016799052387_2_alg».proof.Proof.Gen.Kernel.Points
import proofs.«175673_j29016799052387_2_alg».proof.Proof.Gen.Kernel.Frame
import proofs.«175673_j29016799052387_2_alg».proof.Proof.Gen.KernelIdeal
import proofs.«175673_j29016799052387_2_alg».proof.Proof.Gen.KernelIdeal.Skeleton
import proofs.«175673_j29016799052387_2_alg».proof.Proof.Gen.KernelIdeal.Loops
import proofs.«175673_j29016799052387_2_alg».proof.Proof.Gen.KernelIdeal.Launch
import proofs.«175673_j29016799052387_2_alg».proof.Proof.Gen.KernelIdeal.Points
import proofs.«175673_j29016799052387_2_alg».proof.Proof.Gen.KernelIdeal.Frame
import proofs.«175673_j29016799052387_2_alg».proof.Proof.Gen.ReferenceIdeal
import proofs.«175673_j29016799052387_2_alg».proof.Proof.Gen.Pre_finite_inputs
import proofs.«175673_j29016799052387_2_alg».proof.Proof.Spec
import proofs.«175673_j29016799052387_2_alg».proof.Proof.FiniteInputs
import proofs.«175673_j29016799052387_2_alg».proof.Proof.RefRun
import proofs.«175673_j29016799052387_2_alg».proof.Proof.RefRead
import proofs.«175673_j29016799052387_2_alg».proof.Proof.RefValue
import proofs.«175673_j29016799052387_2_alg».proof.Proof.KValueRun
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten between the kernel and its reading at the extended reals. -/
theorem preserves : Cert.preserves_Kernel_KernelIdeal := trivial

/-- From agreeing arguments of which the precondition holds, both programs end with the value G of the specification
    (the kernel by the online recurrence over rows of real numbers, the reference stage by stage), and with their
    arguments unchanged. -/
theorem algebraic : Cert.algebraic_KernelIdeal_ReferenceIdeal := by
  intro m ρ m' ρ' hpre hagree
  have hfin : ∀ (c : Dev Cert.KernelIdeal.nD) (i : Cert.KernelIdeal.S4096x50257.Idx), ∃ a : ℝ,
      (m ((c.tc : Thread Cert.KernelIdeal.nD Cert.KernelIdeal.τ).loc Cert.KernelIdeal.main_arg0)
        : Cert.KernelIdeal.S4096x50257.Idx → EReal) i = (a : EReal) :=
    fun c i => Cert.Finite.real_of_pre _ _ (hpre c) i
  refine ⟨fun c => fun _ => Cert.LSLoss.G
      (m ((c.tc : Thread Cert.KernelIdeal.nD Cert.KernelIdeal.τ).loc Cert.KernelIdeal.main_arg0))
      (Cert.LSLoss.okOf (m ((c.tc : Thread Cert.KernelIdeal.nD Cert.KernelIdeal.τ).loc Cert.KernelIdeal.main_arg1)))
      (Cert.LSLoss.colOf (m ((c.tc : Thread Cert.KernelIdeal.nD Cert.KernelIdeal.τ).loc Cert.KernelIdeal.main_arg1))),
    Cert.KernelIdeal.KValue.run m ρ hfin, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v18_eq, Cert.ReferenceIdeal.RefValue.result_eq, (hagree c).1,
    (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
